-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_arg0)) (v3 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x3x3 : Shape := ⟨3, ![32768, 3, 3]⟩
abbrev S4194304x3 : Shape := ⟨2, ![4194304, 3]⟩
abbrev S32768 : Shape := ⟨1, ![32768]⟩
abbrev S1000 : Shape := ⟨1, ![1000]⟩
abbrev S_ : Shape := ⟨0, ![]⟩

class Facts : Prop where
  bcast_S_S32768x3x3 : S_.BroadcastsInDim S32768x3x3 (![] : Fin 0 → Fin S32768x3x3.rank)
  reducesTo_S32768x3x3_S_d0_1_2 : S32768x3x3.ReducesTo [0, 1, 2] S_
  h_S_ : 0 < S_.numel
  bcast_S_S4194304x3 : S_.BroadcastsInDim S4194304x3 (![] : Fin 0 → Fin S4194304x3.rank)
  reducesTo_S4194304x3_S_d0_1 : S4194304x3.ReducesTo [0, 1] S_
  bcast_S_S32768 : S_.BroadcastsInDim S32768 (![] : Fin 0 → Fin S32768.rank)
  reducesTo_S32768_S_d0 : S32768.ReducesTo [0] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S4194304x3 .f32) (main_arg5 : FVec F S1000 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S4194304x3 .f32 := Host.absf main_arg4
  let main_cst_6 : FVec F S_ .f32 := constant S_ .f32 0x7F800000#32
  let main_v20 : FVec F S4194304x3 .f32 := broadcastInDim S4194304x3 ![] bcast_S_S4194304x3 main_cst_6
  let main_v21 : IVec S4194304x3 1 := cmpf .olt main_v19 main_v20
  let main_c_7 : IVec S_ 1 := constantI S_ 1 1#1
  let main_v22 : IVec S_ 1 := (fun x v => Host.reduce IntOp.andi x v reducesTo_S4194304x3_S_d0_1 h_S_) main_v21 main_c_7
  let main_v23 : IVec S_ 1 := andi main_v18 main_v22
  let main_v24 : FVec F S1000 .f32 := Host.absf main_arg5
  let main_cst_8 : FVec F S_ .f32 := constant S_ .f32 0x7F800000#32
  let main_v25 : FVec F S1000 .f32 := broadcastInDim S1000 ![] bcast_S_S1000 main_cst_8
  let main_v26 : IVec S1000 1 := cmpf .olt main_v24 main_v25
  let main_c_9 : IVec S_ 1 := constantI S_ 1 1#1
  let main_v27 : IVec S_ 1 := (fun x v => Host.reduce IntOp.andi x v reducesTo_S1000_S_d0 h_S_) main_v26 main_c_9
  let main_v28 : IVec S_ 1 := andi main_v23 main_v27
  main_v28

def fn {F : FTy → Type} [FloatOps F] (main_arg0 : FVec F S32768x3x3 .f32) (main_arg1 : FVec F S4194304x3 .f32) (main_arg2 : FVec F S4194304x3 .f32) (main_arg3 : FVec F S32768 .f32) (main_arg4 : FVec F S4194304x3 .f32) (main_arg5 : FVec F S1000 .f32) (main_arg6 : IVec S32768 32) (main_arg7 : IVec S32768 32) : IVec S_ 1 :=
  let main_v0 : FVec F S32768x3x3 .f32 := Host.absf main_arg0
  let main_cst : FVec F S_ .f32 := constant S_ .f32 0x7F800000#32
  let main_v1 : FVec F S32768x3x3 .f32 := broadcastInDim S32768x3x3 ![] bcast_S_S32768x3x3 main_cst
  let main_v2 : IVec S32768x3x3 1 := cmpf .olt main_v0 main_v1
  let main_c : IVec S_ 1 := constantI S_ 1 1#1
  let main_v3 : IVec S_ 1 := (fun x v => Host.reduce IntOp.andi x v reducesTo_S32768x3x3_S_d0_1_2 h_S_) main_v2 main_c
  let main_v4 : FVec F S4194304x3 .f32 := Host.absf main_arg1
  let main_cst_0 : FVec F S_ .f32 := constant S_ .f32 0x7F800000#32
  let main_v5 : FVec F S4194304x3 .f32 := broadcastInDim S4194304x3 ![] bcast_S_S4194304x3 main_cst_0
  let main_v6 : IVec S4194304x3 1 := cmpf .olt main_v4 main_v5
  let main_c_1 : IVec S_ 1 := constantI S_ 1 1#1
  let main_v7 : IVec S_ 1 := (fun x v => Host.reduce IntOp.andi x v reducesTo_S4194304x3_S_d0_1 h_S_) main_v6 main_c_1
  let main_v8 : IVec S_ 1 := andi main_v3 main_v7
  let main_v9 : FVec F S4194304x3 .f32 := Host.absf main_arg2
  let main_cst_2 : FVec F S_ .f32 := constant S_ .f32 0x7F800000#32
  let main_v10 : FVec F S4194304x3 .f32 := broadcastInDim S4194304x3 ![] bcast_S_S4194304x3 main_cst_2
  let main_v11 : IVec S4194304x3 1 := cmpf .olt main_v9 main_v10
  let main_c_3 : IVec S_ 1 := constantI S_ 1 1#1
  let main_v12 : IVec S_ 1 := (fun x v => Host.reduce IntOp.andi x v reducesTo_S4194304x3_S_d0_1 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_arg5 main_v13 main_v16
-- ==== Kernel.lean ====
abbrev S32768x3x3 : Shape := ⟨3, ![32768, 3, 3]⟩
abbrev S4194304x3 : Shape := ⟨2, ![4194304, 3]⟩
abbrev S32768 : Shape := ⟨1, ![32768]⟩
abbrev S1000 : Shape := ⟨1, ![1000]⟩
abbrev S_ : Shape := ⟨0, ![]⟩
abbrev S32768x1 : Shape := ⟨2, ![32768, 1]⟩
abbrev S1 : Shape := ⟨1, ![1]⟩
abbrev S32767 : Shape := ⟨1, ![32767]⟩
abbrev S4194304 : Shape := ⟨1, ![4194304]⟩
abbrev S4194304x1 : Shape := ⟨2, ![4194304, 1]⟩
abbrev S1x1 : Shape := ⟨2, ![1, 1]⟩
abbrev S12288x1024 : Shape := ⟨2, ![12288, 1024]⟩
abbrev S512x1024 : Shape := ⟨2, ![512, 1024]⟩

abbrev nBuf : Space → Nat
  | .hbm => 78
  | .vmem => 12
  | .smem => 0
  | _ => 0

abbrev bufTy : (tb : Table) → Fin (tcTables nBuf tb) → BufTy
  | .hbm, ⟨0, _⟩ => ⟨S32768x3x3, .f32⟩
  | .hbm, ⟨1, _⟩ => ⟨S4194304x3, .f32⟩
  | .hbm, ⟨2, _⟩ => ⟨S4194304x3, .f32⟩
  | .hbm, ⟨3, _⟩ => ⟨S32768, .f32⟩
  | .hbm, ⟨4, _⟩ => ⟨S4194304x3, .f32⟩
  | .hbm, ⟨5, _⟩ => ⟨S1000, .f32⟩
  | .hbm, ⟨6, _⟩ => ⟨S32768, .i32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i1⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S32768, .i32⟩
  | .hbm, ⟨15, _⟩ => ⟨S32768x1, .i32⟩
  | .hbm, ⟨16, _⟩ => ⟨S32768, .f32⟩
  | .hbm, ⟨17, _⟩ => ⟨S1, .i32⟩
  | .hbm, ⟨18, _⟩ => ⟨S32767, .i32⟩
  | .hbm, ⟨19, _⟩ => ⟨S32768, .i32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S32768, .i32⟩
  | .hbm, ⟨24, _⟩ => ⟨S_, .i32⟩
  | .hbm, ⟨25, _⟩ => ⟨S_, .i32⟩
  | .hbm, ⟨26, _⟩ => ⟨S32768, .i32⟩
  | .hbm, ⟨27, _⟩ => ⟨S_, .i32⟩
  | .hbm, ⟨28, _⟩ => ⟨S4194304, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S_, .i32⟩
  | .hbm, ⟨38, _⟩ => ⟨S32768, .i32⟩
  | .hbm, ⟨39, _⟩ => ⟨S4194304, .i32⟩
  | .hbm, ⟨40, _⟩ => ⟨S_, .i32⟩
  | .hbm, ⟨41, _⟩ => ⟨S_, .i32⟩
  | .hbm, ⟨42, _⟩ => ⟨S4194304, .i32⟩
  | .hbm, ⟨43, _⟩ => ⟨S_, .i32⟩
  | .hbm, ⟨44, _⟩ => ⟨S4194304, .i32⟩
  | .hbm, ⟨45, _⟩ => ⟨S4194304, .i32⟩
  | .hbm, ⟨46, _⟩ => ⟨S_, .i32⟩
  | .hbm, ⟨47, _⟩ => ⟨S4194304, .i32⟩
  | .hbm, ⟨48, _⟩ => ⟨S4194304, .i1⟩
  | .hbm, ⟨49, _⟩ => ⟨S_, .i32⟩
  | .hbm, ⟨50, _⟩ => ⟨S4194304, .i32⟩
  | .hbm, ⟨51, _⟩ => ⟨S4194304, .i32⟩
  | .hbm, ⟨52, _⟩ => ⟨S4194304, .i32⟩
  | .hbm, ⟨53, _⟩ => ⟨S4194304x1, .i32⟩
  | .hbm, ⟨54, _⟩ => ⟨S1, .i32⟩
  | .hbm, ⟨55, _⟩ => ⟨S_, .i32⟩
  | .hbm, ⟨56, _⟩ => ⟨S4194304x1, .i32⟩
  | .hbm, ⟨57, _⟩ => ⟨S4194304x1, .i1⟩
  | .hbm, ⟨58, _⟩ => ⟨S1x1, .i32⟩
  | .hbm, ⟨59, _⟩ => ⟨S4194304x1, .i32⟩
  | .hbm, ⟨60, _⟩ => ⟨S4194304x1, .i1⟩
  | .hbm, ⟨61, _⟩ => ⟨S4194304x1, .i1⟩
  | .hbm, ⟨62, _⟩ => ⟨S_, .i1⟩
  | .hbm, ⟨63, _⟩ => ⟨S4194304, .i1⟩
  | .hbm, ⟨64, _⟩ => ⟨S4194304, .f32⟩
  | .hbm, ⟨65, _⟩ => ⟨S_, .f32⟩
  | .hbm, ⟨66, _⟩ => ⟨S4194304, .f32⟩
  | .hbm, ⟨67, _⟩ => ⟨S4194304, .f32⟩
  | .hbm, ⟨68, _⟩ => ⟨S12288x1024, .f32⟩
  | .hbm, ⟨69, _⟩ => ⟨S12288x1024, .f32⟩
  | .hbm, ⟨70, _⟩ => ⟨S12288x1024, .f32⟩
  | .hbm, ⟨71, _⟩ => ⟨S4194304x1, .f32⟩
  | .hbm, ⟨72, _⟩ => ⟨S4194304x3, .f32⟩
  | .hbm, ⟨73, _⟩ => ⟨S12288x1024, .f32⟩
  | .hbm, ⟨74, _⟩ => ⟨S12288x1024, .f32⟩
  | .hbm, ⟨75, _⟩ => ⟨S12288x1024, .f32⟩
  | .hbm, ⟨76, _⟩ => ⟨S4194304x3, .f32⟩
  | .hbm, ⟨77, _⟩ => ⟨S4194304x3, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S32768x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_call1_call0_c : Ref sig .tc := ⟨.hbm, 24, rfl⟩
abbrev main_call1_call0_v0 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_c_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_call2_call0_c : Ref sig .tc := ⟨.hbm, 40, rfl⟩
abbrev main_call2_call0_v0 : Ref sig .tc := ⟨.hbm, 41, rfl⟩
abbrev main_v20 : Ref sig .tc := ⟨.hbm, 42, rfl⟩
abbrev main_c_7 : Ref sig .tc := ⟨.hbm, 43, rfl⟩
abbrev main_v21 : Ref sig .tc := ⟨.hbm, 44, rfl⟩
abbrev main_v22 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_c_1 : Ref sig .tc := ⟨.hbm, 54, rfl⟩
abbrev main_call3_c_2 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_3 : Ref sig .tc := ⟨.hbm, 62, rfl⟩
abbrev main_call3_v12 : Ref sig .tc := ⟨.hbm, 63, rfl⟩
abbrev main_call3_v13 : Ref sig .tc := ⟨.hbm, 64, rfl⟩
abbrev main_call3_cst : Ref sig .tc := ⟨.hbm, 65, rfl⟩
abbrev main_call3_v14 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30_0 : Ref sig .tc := ⟨.hbm, 74, rfl⟩
abbrev main_v30_1 : Ref sig .tc := ⟨.hbm, 75, rfl⟩
abbrev main_v31 : Ref sig .tc := ⟨.hbm, 76, rfl⟩
abbrev main_v32 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  slices_S32768_S1_32767 : S32768.Slices ![32767] S1
  slices_S32768_S32767_0 : S32768.Slices ![0] S32767
  concatenates_S1_S32767_S32768_d0 : Shape.Concatenates [S1, S32767] S32768 0
  bcast_S_S1 : S_.BroadcastsInDim S1 (![] : Fin 0 → Fin S1.rank)
  bcast_S_S_ : S_.BroadcastsInDim S_ (![] : Fin 0 → Fin S_.rank)
  reduceWindows_S32768_S32768_w32768s1p32767_0 : S32768.ReduceWindows (![32768] : Fin 1 → Nat) ![1] ![32767] ![0] S32768
  h_S_ : 0 < S_.numel
  bcast_S_S4194304 : S_.BroadcastsInDim S4194304 (![] : Fin 0 → Fin S4194304.rank)
  reduceWindows_S4194304_S4194304_w4194304s1p4194303_0 : S4194304.ReduceWindows (![4194304] : Fin 1 → Nat) ![1] ![4194303] ![0] S4194304
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  shapeCasts_S4194304x3_S12288x1024 : S4194304x3.ShapeCasts S12288x1024
  bcast_S4194304x1_S4194304x3_0_1 : S4194304x1.BroadcastsInDim S4194304x3 (![0, 1] : Fin 2 → Fin S4194304x3.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S12288x1024_S4194304x3 : S12288x1024.ShapeCasts S4194304x3
  gather_S1000_S32768x1_S32768_n_0_n_n_0_1_1_wf : GatherDims.WF S1000 S32768x1 S32768 [] [0] [] [0] [] 1 ![1]
  scatter_S32768_S1_S__n_0_0_0_wf : ScatterDims.WF S32768 S1 S_ [] [0] [0] 0
  scatter_S4194304_S32768x1_S32768_n_0_0_1_wf : ScatterDims.WF S4194304 S32768x1 S32768 [] [0] [0] 1
  gather_S32768_S4194304x1_S4194304_n_0_n_n_0_1_1_wf : GatherDims.WF S32768 S4194304x1 S4194304 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S12288x1024.size a
  hwx0_0 : ∀ i : grid0.Coords, EltTy.bits .f32 = 32 ∨ (Rect.block (s := S12288x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S12288x1024.size a
  hwx0_1 : ∀ i : grid0.Coords, EltTy.bits .f32 = 32 ∨ (Rect.block (s := S12288x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S12288x1024.size a
  hwx0_2 : ∀ i : grid0.Coords, EltTy.bits .f32 = 32 ∨ (Rect.block (s := S12288x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S12288x1024.size a
  hwx0_3 : ∀ i : grid0.Coords, EltTy.bits .f32 = 32 ∨ (Rect.block (s := S12288x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S12288x1024.size a
  hwx0_4 : ∀ i : grid0.Coords, EltTy.bits .f32 = 32 ∨ (Rect.block (s := S12288x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S12288x1024.size a
  hwx0_5 : ∀ i : grid0.Coords, EltTy.bits .f32 = 32 ∨ (Rect.block (s := S12288x1024) S512x1024.size (cc0_transform_5 i) (hinb0_5 i)).WholeWords (EltTy.packing .f32)

variable [Facts₀]

def gather_S1000_S32768x1_S32768_n_0_n_n_0_1_1 : GatherDims S1000 S32768x1 S32768 where
  offsetDims := []
  collapsedSliceDims := [0]
  operandBatchingDims := []
  startIndicesBatchingDims := []
  startIndexMap := [0]
  indexVectorDim := 1
  sliceSizes := ![1]
  wf := gather_S1000_S32768x1_S32768_n_0_n_n_0_1_1_wf
def scatter_S32768_S1_S__n_0_0_0 : ScatterDims S32768 S1 S_ where
  updateWindowDims := []
  insertedWindowDims := [0]
  scatterDimsToOperandDims := [0]
  indexVectorDim := 0
  wf := scatter_S32768_S1_S__n_0_0_0_wf
def scatter_S4194304_S32768x1_S32768_n_0_0_1 : ScatterDims S4194304 S32768x1 S32768 where
  updateWindowDims := []
  insertedWindowDims := [0]
  scatterDimsToOperandDims := [0]
  indexVectorDim := 1
  wf := scatter_S4194304_S32768x1_S32768_n_0_0_1_wf
def gather_S32768_S4194304x1_S4194304_n_0_n_n_0_1_1 : GatherDims S32768 S4194304x1 S4194304 where
  offsetDims := []
  collapsedSliceDims := [0]
  operandBatchingDims := []
  startIndicesBatchingDims := []
  startIndexMap := [0]
  indexVectorDim := 1
  sliceSizes := ![1]
  wf := gather_S32768_S4194304x1_S4194304_n_0_n_n_0_1_1_wf

abbrev win0_0 : Pipeline.Window sig grid0 :=
  Pipeline.Window.ofSpec (Memref.whole main_v24) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x3x3 : Shape := ⟨3, ![32768, 3, 3]⟩
abbrev S4194304x3 : Shape := ⟨2, ![4194304, 3]⟩
abbrev S32768 : Shape := ⟨1, ![32768]⟩
abbrev S1000 : Shape := ⟨1, ![1000]⟩
abbrev S_ : Shape := ⟨0, ![]⟩
abbrev S32768x1 : Shape := ⟨2, ![32768, 1]⟩
abbrev S1 : Shape := ⟨1, ![1]⟩
abbrev S32767 : Shape := ⟨1, ![32767]⟩
abbrev S4194304 : Shape := ⟨1, ![4194304]⟩
abbrev S4194304x1 : Shape := ⟨2, ![4194304, 1]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S32768x3x3, .f32⟩
  | .hbm, ⟨1, _⟩ => ⟨S4194304x3, .f32⟩
  | .hbm, ⟨2, _⟩ => ⟨S4194304x3, .f32⟩
  | .hbm, ⟨3, _⟩ => ⟨S32768, .f32⟩
  | .hbm, ⟨4, _⟩ => ⟨S4194304x3, .f32⟩
  | .hbm, ⟨5, _⟩ => ⟨S1000, .f32⟩
  | .hbm, ⟨6, _⟩ => ⟨S32768, .i32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i1⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S32768, .i32⟩
  | .hbm, ⟨15, _⟩ => ⟨S32768x1, .i32⟩
  | .hbm, ⟨16, _⟩ => ⟨S32768, .f32⟩
  | .hbm, ⟨17, _⟩ => ⟨S1, .i32⟩
  | .hbm, ⟨18, _⟩ => ⟨S32767, .i32⟩
  | .hbm, ⟨19, _⟩ => ⟨S32768, .i32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S32768, .i32⟩
  | .hbm, ⟨24, _⟩ => ⟨S_, .i32⟩
  | .hbm, ⟨25, _⟩ => ⟨S_, .i32⟩
  | .hbm, ⟨26, _⟩ => ⟨S32768, .i32⟩
  | .hbm, ⟨27, _⟩ => ⟨S_, .i32⟩
  | .hbm, ⟨28, _⟩ => ⟨S4194304, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S_, .i32⟩
  | .hbm, ⟨38, _⟩ => ⟨S32768, .i32⟩
  | .hbm, ⟨39, _⟩ => ⟨S4194304, .i32⟩
  | .hbm, ⟨40, _⟩ => ⟨S_, .i32⟩
  | .hbm, ⟨41, _⟩ => ⟨S_, .i32⟩
  | .hbm, ⟨42, _⟩ => ⟨S4194304, .i32⟩
  | .hbm, ⟨43, _⟩ => ⟨S_, .i32⟩
  | .hbm, ⟨44, _⟩ => ⟨S4194304, .i32⟩
  | .hbm, ⟨45, _⟩ => ⟨S4194304, .i32⟩
  | .hbm, ⟨46, _⟩ => ⟨S_, .i32⟩
  | .hbm, ⟨47, _⟩ => ⟨S4194304, .i32⟩
  | .hbm, ⟨48, _⟩ => ⟨S4194304, .i1⟩
  | .hbm, ⟨49, _⟩ => ⟨S_, .i32⟩
  | .hbm, ⟨50, _⟩ => ⟨S4194304, .i32⟩
  | .hbm, ⟨51, _⟩ => ⟨S4194304, .i32⟩
  | .hbm, ⟨52, _⟩ => ⟨S4194304, .i32⟩
  | .hbm, ⟨53, _⟩ => ⟨S4194304x1, .i32⟩
  | .hbm, ⟨54, _⟩ => ⟨S1, .i32⟩
  | .hbm, ⟨55, _⟩ => ⟨S_, .i32⟩
  | .hbm, ⟨56, _⟩ => ⟨S4194304x1, .i32⟩
  | .hbm, ⟨57, _⟩ => ⟨S4194304x1, .i1⟩
  | .hbm, ⟨58, _⟩ => ⟨S1x1, .i32⟩
  | .hbm, ⟨59, _⟩ => ⟨S4194304x1, .i32⟩
  | .hbm, ⟨60, _⟩ => ⟨S4194304x1, .i1⟩
  | .hbm, ⟨61, _⟩ => ⟨S4194304x1, .i1⟩
  | .hbm, ⟨62, _⟩ => ⟨S_, .i1⟩
  | .hbm, ⟨63, _⟩ => ⟨S4194304, .i1⟩
  | .hbm, ⟨64, _⟩ => ⟨S4194304, .f32⟩
  | .hbm, ⟨65, _⟩ => ⟨S_, .f32⟩
  | .hbm, ⟨66, _⟩ => ⟨S4194304, .f32⟩
  | .hbm, ⟨67, _⟩ => ⟨S4194304, .f32⟩
  | .hbm, ⟨68, _⟩ => ⟨S4194304x1, .f32⟩
  | .hbm, ⟨69, _⟩ => ⟨S4194304x3, .f32⟩
  | .hbm, ⟨70, _⟩ => ⟨S4194304x3, .f32⟩
  | .hbm, ⟨71, _⟩ => ⟨S4194304x3, .f32⟩
  | .hbm, ⟨72, _⟩ => ⟨S4194304x3, .f32⟩
  | .hbm, ⟨73, _⟩ => ⟨S_, .f32⟩
  | .hbm, ⟨74, _⟩ => ⟨S4194304x3, .f32⟩
  | .hbm, ⟨75, _⟩ => ⟨S4194304x3, .f32⟩
  | _, _ => ⟨S32768x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_call1_call0_c : Ref sig .tc := ⟨.hbm, 24, rfl⟩
abbrev main_call1_call0_v0 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_c_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_call2_call0_c : Ref sig .tc := ⟨.hbm, 40, rfl⟩
abbrev main_call2_call0_v0 : Ref sig .tc := ⟨.hbm, 41, rfl⟩
abbrev main_v20 : Ref sig .tc := ⟨.hbm, 42, rfl⟩
abbrev main_c_7 : Ref sig .tc := ⟨.hbm, 43, rfl⟩
abbrev main_v21 : Ref sig .tc := ⟨.hbm, 44, rfl⟩
abbrev main_v22 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_c_1 : Ref sig .tc := ⟨.hbm, 54, rfl⟩
abbrev main_call3_c_2 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_3 : Ref sig .tc := ⟨.hbm, 62, rfl⟩
abbrev main_call3_v12 : Ref sig .tc := ⟨.hbm, 63, rfl⟩
abbrev main_call3_v13 : Ref sig .tc := ⟨.hbm, 64, rfl⟩
abbrev main_call3_cst : Ref sig .tc := ⟨.hbm, 65, rfl⟩
abbrev main_call3_v14 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst : Ref sig .tc := ⟨.hbm, 73, rfl⟩
abbrev main_v29 : Ref sig .tc := ⟨.hbm, 74, rfl⟩
abbrev main_v30 : Ref sig .tc := ⟨.hbm, 75, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  slices_S32768_S1_32767 : S32768.Slices ![32767] S1
  slices_S32768_S32767_0 : S32768.Slices ![0] S32767
  concatenates_S1_S32767_S32768_d0 : Shape.Concatenates [S1, S32767] S32768 0
  bcast_S_S1 : S_.BroadcastsInDim S1 (![] : Fin 0 → Fin S1.rank)
  bcast_S_S_ : S_.BroadcastsInDim S_ (![] : Fin 0 → Fin S_.rank)
  reduceWindows_S32768_S32768_w32768s1p32767_0 : S32768.ReduceWindows (![32768] : Fin 1 → Nat) ![1] ![32767] ![0] S32768
  h_S_ : 0 < S_.numel
  bcast_S_S4194304 : S_.BroadcastsInDim S4194304 (![] : Fin 0 → Fin S4194304.rank)
  reduceWindows_S4194304_S4194304_w4194304s1p4194303_0 : S4194304.ReduceWindows (![4194304] : Fin 1 → Nat) ![1] ![4194303] ![0] S4194304
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  bcast_S4194304x1_S4194304x3_0_1 : S4194304x1.BroadcastsInDim S4194304x3 (![0, 1] : Fin 2 → Fin S4194304x3.rank)
  bcast_S_S4194304x3 : S_.BroadcastsInDim S4194304x3 (![] : Fin 0 → Fin S4194304x3.rank)
  gather_S1000_S32768x1_S32768_n_0_n_n_0_1_1_wf : GatherDims.WF S1000 S32768x1 S32768 [] [0] [] [0] [] 1 ![1]
  scatter_S32768_S1_S__n_0_0_0_wf : ScatterDims.WF S32768 S1 S_ [] [0] [0] 0
  scatter_S4194304_S32768x1_S32768_n_0_0_1_wf : ScatterDims.WF S4194304 S32768x1 S32768 [] [0] [0] 1
  gather_S32768_S4194304x1_S4194304_n_0_n_n_0_1_1_wf : GatherDims.WF S32768 S4194304x1 S4194304 [] [0] [] [0] [] 1 ![1]

variable [Facts₀]

def gather_S1000_S32768x1_S32768_n_0_n_n_0_1_1 : GatherDims S1000 S32768x1 S32768 where
  offsetDims := []
  collapsedSliceDims := [0]
  operandBatchingDims := []
  startIndicesBatchingDims := []
  startIndexMap := [0]
  indexVectorDim := 1
  sliceSizes := ![1]
  wf := gather_S1000_S32768x1_S32768_n_0_n_n_0_1_1_wf
def scatter_S32768_S1_S__n_0_0_0 : ScatterDims S32768 S1 S_ where
  updateWindowDims := []
  insertedWindowDims := [0]
  scatterDimsToOperandDims := [0]
  indexVectorDim := 0
  wf := scatter_S32768_S1_S__n_0_0_0_wf
def scatter_S4194304_S32768x1_S32768_n_0_0_1 : ScatterDims S4194304 S32768x1 S32768 where
  updateWindowDims := []
  insertedWindowDims := [0]
  scatterDimsToOperandDims := [0]
  indexVectorDim := 1
  wf := scatter_S4194304_S32768x1_S32768_n_0_0_1_wf
def gather_S32768_S4194304x1_S4194304_n_0_n_n_0_1_1 : GatherDims S32768 S4194304x1 S4194304 where
  offsetDims := []
  collapsedSliceDims := [0]
  operandBatchingDims := []
  startIndicesBatchingDims := []
  startIndexMap := [0]
  indexVectorDim := 1
  sliceSizes := ![1]
  wf := gather_S32768_S4194304x1_S4194304_n_0_n_n_0_1_1_wf

class Facts : Prop extends Facts₀ where

variable [Facts]
-- ==== Proof.ScaleGlue.lean ====
/-
  The per-atom noise scale, as ONE function of the three arrays it depends on.

  Both programs obtain it by the same chain of host operations, line for line. Each stretch of the chain is named here
  as a function of what the stretch reads:
    * `scaleB`: the per-sample scale, `noise_scales` gathered at the timestep `t` (a negative index wrapped by 1000);
    * `rolled`, `firstZeroed`, `runningSumB`: the atom counts moved one place to the right, the first entry set to
      zero, summed cumulatively — every sample's first atom;
    * `startMarks`, `runningSumT`, `minusOne`: a one added at every start, summed cumulatively, minus one — the sample
      every atom belongs to;
    * `wrapIdx`, `inRange`, `pick` — together `takeFill`: the per-sample scale taken at each atom's sample (a negative
      index wrapped by 32768, an index outside [0, 32767] answered by the fill value).
  Nothing in the certificate ever looks inside these functions: it only needs that the kernel's program and the
  reference feed the SAME composition the same three arrays.
-/
import proofs.«116200_j72103910966019_2_alg».proof.Proof.Gen.KernelIdeal

noncomputable section

namespace Cert.Noiser

open Idealize.ShloMosaic Cert.KernelIdeal Cert.KernelIdeal.Facts₀

variable {F : FTy → Type} [FloatOps F]

/-- The per-sample scale: `noise_scales[t]`, a negative `t` counted from the end. -/
def scaleB (ns : (⟨S1000, .f32⟩ : BufTy).Contents (Elt F)) (t : (⟨S32768, .i32⟩ : BufTy).Contents (Elt F)) : (⟨S32768, .f32⟩ : BufTy).Contents (Elt F) :=
  Host.gather gather_S1000_S32768x1_S32768_n_0_n_n_0_1_1 ns
    (broadcastInDim S32768x1 ![0] bcast_S32768_S32768x1_0
      (select (cmpi .slt t (broadcastInDim S32768 ![] bcast_S_S32768 (constantI S_ 32 0#32)))
        (addi t (broadcastInDim S32768 ![] bcast_S_S32768 (constantI S_ 32 1000#32))) t))

/-- The atom counts moved one place to the right, the last one coming first. -/
def rolled (na : (⟨S32768, .i32⟩ : BufTy).Contents (Elt F)) : (⟨S32768, .i32⟩ : BufTy).Contents (Elt F) :=
  concatenate S32768 0 [⟨S1, extractStridedSlice S1 ![32767] na slices_S32768_S1_32767⟩,
    ⟨S32767, extractStridedSlice S32767 ![0] na slices_S32768_S32767_0⟩] concatenates_S1_S32767_S32768_d0

/-- The same with its first entry set to zero. -/
def firstZeroed (r : (⟨S32768, .i32⟩ : BufTy).Contents (Elt F)) : (⟨S32768, .i32⟩ : BufTy).Contents (Elt F) :=
  Host.scatter scatter_S32768_S1_S__n_0_0_0 (fun _ b => b) r
    (broadcastInDim S1 ![] bcast_S_S1 (constantI S_ 32 0#32)) (constantI S_ 32 0#32)

/-- The running sum along the samples. -/
def runningSumB (x : (⟨S32768, .i32⟩ : BufTy).Contents (Elt F)) : (⟨S32768, .i32⟩ : BufTy).Contents (Elt F) :=
  Host.reduceWindow IntOp.addi ![32768] ![1] ![32767] ![0] x
    (broadcastInDim S_ ![] bcast_S_S_ (constantI S_ 32 0#32)) reduceWindows_S32768_S32768_w32768s1p32767_0 h_S_

/-- A one added at every sample's first atom (a negative position counted from the end), zeros elsewhere. -/
def startMarks (st : (⟨S32768, .i32⟩ : BufTy).Contents (Elt F)) : (⟨S4194304, .i32⟩ : BufTy).Contents (Elt F) :=
  Host.scatter scatter_S4194304_S32768x1_S32768_n_0_0_1 IntOp.addi
    (broadcastInDim S4194304 ![] bcast_S_S4194304 (constantI S_ 32 0#32))
    (broadcastInDim S32768x1 ![0] bcast_S32768_S32768x1_0
      (select (cmpi .slt st (broadcastInDim S32768 ![] bcast_S_S32768 (constantI S_ 32 0#32)))
        (addi st (broadcastInDim S32768 ![] bcast_S_S32768 (constantI S_ 32 4194304#32))) st))
    (broadcastInDim S32768 ![] bcast_S_S32768 (constantI S_ 32 1#32))

/-- The running sum along the atoms. -/
def runningSumT (x : (⟨S4194304, .i32⟩ : BufTy).Contents (Elt F)) : (⟨S4194304, .i32⟩ : BufTy).Contents (Elt F) :=
  Host.reduceWindow IntOp.addi ![4194304] ![1] ![4194303] ![0] x
    (broadcastInDim S_ ![] bcast_S_S_ (constantI S_ 32 0#32)) reduceWindows_S4194304_S4194304_w4194304s1p4194303_0 h_S_

/-- One less, entry by entry. -/
def minusOne (x : (⟨S4194304, .i32⟩ : BufTy).Contents (Elt F)) : (⟨S4194304, .i32⟩ : BufTy).Contents (Elt F) :=
  subi x (broadcastInDim S4194304 ![] bcast_S_S4194304 (constantI S_ 32 1#32))

/-- An atom's sample as a gather index: a negative one counted from the end, as a column. -/
def wrapIdx (seg : (⟨S4194304, .i32⟩ : BufTy).Contents (Elt F)) : (⟨S4194304x1, .i32⟩ : BufTy).Contents (Elt F) :=
  broadcastInDim S4194304x1 ![0] bcast_S4194304_S4194304x1_0
    (select (cmpi .slt seg (broadcastInDim S4194304 ![] bcast_S_S4194304 (constantI S_ 32 0#32)))
      (addi seg (broadcastInDim S4194304 ![] bcast_S_S4194304 (constantI S_ 32 32768#32))) seg)

/-- Whether a gather index (a column) lies in [0, 32767]. -/
def inRange (ix : (⟨S4194304x1, .i32⟩ : BufTy).Contents (Elt F)) : (⟨S4194304, .i1⟩ : BufTy).Contents (Elt F) :=
  Host.reduce IntOp.andi
    (andi (cmpi .sge ix (broadcastInDim S4194304x1 ![] bcast_S_S4194304x1 (constantI S_ 32 0#32)))
      (cmpi .sle ix
        (broadcastInDim S4194304x1 ![0, 1] bcast_S1x1_S4194304x1_0_1
          (broadcastInDim S1x1 ![1] bcast_S1_S1x1_1 (constantI S1 32 32767#32)))))
    (constantI S_ 1 1#1) reducesTo_S4194304x1_S4194304_d1 h_S_

/-- The per-sample values gathered at the indices, the fill value where `ok` says the index is out of range. -/
def pick (ok : (⟨S4194304, .i1⟩ : BufTy).Contents (Elt F)) (sb : (⟨S32768, .f32⟩ : BufTy).Contents (Elt F)) (ix : (⟨S4194304x1, .i32⟩ : BufTy).Contents (Elt F)) : (⟨S4194304, .f32⟩ : BufTy).Contents (Elt F) :=
  select ok (Host.gather gather_S32768_S4194304x1_S4194304_n_0_n_n_0_1_1 sb ix)
    (broadcastInDim S4194304 ![] bcast_S_S4194304 (constant S_ .f32 0x7FC00000#32))

/-- The per-sample value at each atom's sample; the fill value where the index is outside [0, 32767]. -/
def takeFill (sb : (⟨S32768, .f32⟩ : BufTy).Contents (Elt F)) (seg : (⟨S4194304, .i32⟩ : BufTy).Contents (Elt F)) : (⟨S4194304, .f32⟩ : BufTy).Contents (Elt F) :=
  pick (inRange (F := F) (wrapIdx (F := F) seg)) sb (wrapIdx (F := F) seg)

/-- THE PER-ATOM NOISE SCALE of the three arrays it is computed from. -/
def scaleAtom (ns : (⟨S1000, .f32⟩ : BufTy).Contents (Elt F)) (t : (⟨S32768, .i32⟩ : BufTy).Contents (Elt F)) (na : (⟨S32768, .i32⟩ : BufTy).Contents (Elt F)) : (⟨S4194304, .f32⟩ : BufTy).Contents (Elt F) :=
  takeFill (scaleB ns t)
    (minusOne (F := F) (runningSumT (F := F) (startMarks (F := F) (runningSumB (F := F) (firstZeroed (F := F) (rolled (F := F) na))))))

/-- The scale repeated along each atom's three coordinates. -/
def scaleRows (s : (⟨S4194304, .f32⟩ : BufTy).Contents (Elt F)) : (⟨S4194304x3, .f32⟩ : BufTy).Contents (Elt F) :=
  broadcastInDim S4194304x3 ![0, 1] bcast_S4194304x1_S4194304x3_0_1
    (broadcastInDim S4194304x1 ![0] bcast_S4194304_S4194304x1_0 s)

end Cert.Noiser

end
-- ==== Proof.LibHostFold.lean ====
/-
  A general fact about straight lines of host operations: the contents after two lines run one after the other are
  the contents after the second, started from the contents after the first. It lets a long line be read a stretch at a
  time, each stretch at whatever contents the earlier ones left.
-/
import Idealize.ShloMosaic.Lib.StableHlo.Run

namespace Idealize.ShloMosaic.StableHlo

variable {τ : Topo} {sig : RefSig} {Val : EltTy → Type}

/-- The fold of the operations' results over a concatenation is the fold over the second part of the fold over the
    first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo
-- ==== Proof.GlueK.lean ====
/-
  The chain of host operations that computes the per-atom noise scale, read a stretch at a time (the kernel's program).

  The chain is eight stretches, the last of them (the masked take) read in three parts. Each is read at WHATEVER
  contents the buffers hold when it starts: the one buffer the stretch produces for later use is the stretch's function
  (Proof/ScaleGlue.lean) of the buffers it reads, and the buffers a later stretch still needs are not written. Chained,
  the whole prefix leaves in `main_v23` the composition `scaleAtom` of `noise_scales`, `t` and `num_atoms` as
  launched, and leaves `x_mid`, `x_mid_prev`, `noise_x` alone.
-/
import proofs.«116200_j72103910966019_2_alg».proof.Proof.Gen.KernelIdeal.Launch
import proofs.«116200_j72103910966019_2_alg».proof.Proof.ScaleGlue
import proofs.«116200_j72103910966019_2_alg».proof.Proof.LibHostFold
import Idealize.ShloMosaic.Lib.StableHlo.Run

noncomputable section

namespace Cert.Noiser.GlueK

open Cert.KernelIdeal Cert.KernelIdeal.Facts₀
open Idealize.ShloMosaic Idealize.ShloMosaic.TcCoe Idealize.SL.Sem Idealize.ShloMosaic.StableHlo
open Cert.Noiser

variable {F : FTy → Type} [FloatOps F]

/-- The take, first part: the sample of each atom as a gather index (8 operations). -/
abbrev ta : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S4194304, .i32⟩) (broadcastInDim S4194304 ![] bcast_S_S4194304),
    StableHlo.TRef.binary (.of main_v22 : StableHlo.TRef sig ⟨S4194304, .i32⟩) (.of main_call3_v0 : StableHlo.TRef sig ⟨S4194304, .i32⟩) (.of main_call3_v1 : StableHlo.TRef sig ⟨S4194304, .i1⟩) (cmpi .slt),
    StableHlo.TRef.nullary (.of main_call3_c_0 : StableHlo.TRef sig ⟨S_, .i32⟩) (constantI S_ 32 32768#32),
    StableHlo.TRef.unary (.of main_call3_c_0 : StableHlo.TRef sig ⟨S_, .i32⟩) (.of main_call3_v2 : StableHlo.TRef sig ⟨S4194304, .i32⟩) (broadcastInDim S4194304 ![] bcast_S_S4194304),
    StableHlo.TRef.binary (.of main_v22 : StableHlo.TRef sig ⟨S4194304, .i32⟩) (.of main_call3_v2 : StableHlo.TRef sig ⟨S4194304, .i32⟩) (.of main_call3_v3 : StableHlo.TRef sig ⟨S4194304, .i32⟩) addi,
    StableHlo.TRef.ternary (.of main_call3_v1 : StableHlo.TRef sig ⟨S4194304, .i1⟩) (.of main_call3_v3 : StableHlo.TRef sig ⟨S4194304, .i32⟩) (.of main_v22 : StableHlo.TRef sig ⟨S4194304, .i32⟩) (.of main_call3_v4 : StableHlo.TRef sig ⟨S4194304, .i32⟩) select,
    StableHlo.TRef.unary main_call3_call0.v0 (.of main_call3_v5 : StableHlo.TRef sig ⟨S4194304x1, .i32⟩) (broadcastInDim S4194304x1 ![0] bcast_S4194304_S4194304x1_0) ]

/-- The take, second part: whether each index is in range (10 operations). -/
abbrev tb : List (HloOp τ sig (Elt F)) :=
  [ StableHlo.TRef.nullary (.of main_call3_c_1 : StableHlo.TRef sig ⟨S1, .i32⟩) (constantI S1 32 32767#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S4194304x1, .i32⟩) (broadcastInDim S4194304x1 ![] bcast_S_S4194304x1),
    StableHlo.TRef.binary (.of main_call3_v5 : StableHlo.TRef sig ⟨S4194304x1, .i32⟩) (.of main_call3_v6 : StableHlo.TRef sig ⟨S4194304x1, .i32⟩) (.of main_call3_v7 : StableHlo.TRef sig ⟨S4194304x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S4194304x1, .i32⟩) (broadcastInDim S4194304x1 ![0, 1] bcast_S1x1_S4194304x1_0_1),
    StableHlo.TRef.binary (.of main_call3_v5 : StableHlo.TRef sig ⟨S4194304x1, .i32⟩) (.of main_call3_v9 : StableHlo.TRef sig ⟨S4194304x1, .i32⟩) (.of main_call3_v10 : StableHlo.TRef sig ⟨S4194304x1, .i1⟩) (cmpi .sle),
    StableHlo.TRef.binary (.of main_call3_v7 : StableHlo.TRef sig ⟨S4194304x1, .i1⟩) (.of main_call3_v10 : StableHlo.TRef sig ⟨S4194304x1, .i1⟩) (.of main_call3_v11 : StableHlo.TRef sig ⟨S4194304x1, .i1⟩) andi,
    StableHlo.TRef.nullary (.of main_call3_c_3 : StableHlo.TRef sig ⟨S_, .i1⟩) (constantI S_ 1 1#1),
    StableHlo.TRef.binary (.of main_call3_v11 : StableHlo.TRef sig ⟨S4194304x1, .i1⟩) (.of main_call3_c_3 : StableHlo.TRef sig ⟨S_, .i1⟩) (.of main_call3_v12 : StableHlo.TRef sig ⟨S4194304, .i1⟩) (fun x v => Host.reduce IntOp.andi x v reducesTo_S4194304x1_S4194304_d1 h_S_) ]

/-- The take, third part: the gather and the choice against the fill value (4 operations). -/
abbrev tc : List (HloOp τ sig (Elt F)) :=
  [ StableHlo.TRef.binary (.of main_v6 : StableHlo.TRef sig ⟨S32768, .f32⟩) (.of main_call3_v5 : StableHlo.TRef sig ⟨S4194304x1, .i32⟩) (.of main_call3_v13 : StableHlo.TRef sig ⟨S4194304, .f32⟩) (fun x i => Host.gather gather_S32768_S4194304x1_S4194304_n_0_n_n_0_1_1 x i),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S4194304, .f32⟩) (broadcastInDim S4194304 ![] bcast_S_S4194304),
    StableHlo.TRef.ternary (.of main_call3_v12 : StableHlo.TRef sig ⟨S4194304, .i1⟩) (.of main_call3_v13 : StableHlo.TRef sig ⟨S4194304, .f32⟩) (.of main_call3_v14 : StableHlo.TRef sig ⟨S4194304, .f32⟩) (.of main_v23 : StableHlo.TRef sig ⟨S4194304, .f32⟩) select ]

/-- The take is its three parts, one after the other. -/
theorem take_split : (Gen.hostOps0_7 : List (HloOp τ sig (Elt F))) = ta ++ (tb ++ tc) := rfl

/-- The eight stretches, one after the other: everything before the per-atom scale is used. -/
abbrev pre : List (HloOp τ sig (Elt F)) :=
  Gen.hostOps0 ++ (Gen.hostOps0_1 ++ (Gen.hostOps0_2 ++ (Gen.hostOps0_3 ++ (Gen.hostOps0_4 ++ (Gen.hostOps0_5 ++ (Gen.hostOps0_6 ++ Gen.hostOps0_7))))))

/-- Read a stretch at a time. -/
theorem after_pre (V : Valuation τ sig (Elt F)) :
    after pre V = after Gen.hostOps0_7 (after Gen.hostOps0_6 (after Gen.hostOps0_5 (after Gen.hostOps0_4 (after Gen.hostOps0_3 (after Gen.hostOps0_2 (after Gen.hostOps0_1 (after Gen.hostOps0 V))))))) := by
  simp only [pre, after_append]

section Stretches
attribute [local irreducible] Host.reduce Host.gather Host.scatter Host.reduceWindow concatenate extractStridedSlice

/-- Stretch 0 leaves the per-sample scale. -/
theorem st0 (W : Valuation τ sig (Elt F)) : after Gen.hostOps0 W (main_v6 : DevRef τ sig) = scaleB (W (main_arg5 : DevRef τ sig)) (W (main_arg6 : DevRef τ sig)) := by
  after_results
  rfl

/-- Stretch 1 leaves the atom counts rolled. -/
theorem st1 (W : Valuation τ sig (Elt F)) : after Gen.hostOps0_1 W (main_v7 : DevRef τ sig) = rolled (W (main_arg7 : DevRef τ sig)) := by
  after_results
  rfl

/-- Stretch 2 zeroes the first entry. -/
theorem st2 (W : Valuation τ sig (Elt F)) : after Gen.hostOps0_2 W (main_v9 : DevRef τ sig) = firstZeroed (W (main_v7 : DevRef τ sig)) := by
  after_results
  rfl

/-- Stretch 3 sums along the samples. -/
theorem st3 (W : Valuation τ sig (Elt F)) : after Gen.hostOps0_3 W (main_v10 : DevRef τ sig) = runningSumB (W (main_v9 : DevRef τ sig)) := by
  after_results
  rfl

/-- Stretch 4 marks every sample's first atom. -/
theorem st4 (W : Valuation τ sig (Elt F)) : after Gen.hostOps0_4 W (main_v19 : DevRef τ sig) = startMarks (W (main_v10 : DevRef τ sig)) := by
  after_results
  rfl

/-- Stretch 5 sums along the atoms. -/
theorem st5 (W : Valuation τ sig (Elt F)) : after Gen.hostOps0_5 W (main_v20 : DevRef τ sig) = runningSumT (W (main_v19 : DevRef τ sig)) := by
  after_results
  rfl

/-- Stretch 6 subtracts one. -/
theorem st6 (W : Valuation τ sig (Elt F)) : after Gen.hostOps0_6 W (main_v22 : DevRef τ sig) = minusOne (W (main_v20 : DevRef τ sig)) := by
  after_results
  rfl

/-- The take, first part: each atom's sample as a gather index. -/
theorem st7a (W : Valuation τ sig (Elt F)) : after ta W (main_call3_v5 : DevRef τ sig) = wrapIdx (W (main_v22 : DevRef τ sig)) := by
  after_results
  rfl

/-- The take, second part: whether the index is in range. -/
theorem st7b (W : Valuation τ sig (Elt F)) : after tb W (main_call3_v12 : DevRef τ sig) = inRange (W (main_call3_v5 : DevRef τ sig)) := by
  after_results
  rfl

/-- The take, third part: the gather and the choice against the fill value. -/
theorem st7c (W : Valuation τ sig (Elt F)) : after tc W (main_v23 : DevRef τ sig) = pick (W (main_call3_v12 : DevRef τ sig)) (W (main_v6 : DevRef τ sig)) (W (main_call3_v5 : DevRef τ sig)) := by
  after_results
  rfl

end Stretches

/-! The buffers a later stretch still needs are not written in between. -/

theorem keep0_arg7 (W : Valuation τ sig (Elt F)) : after Gen.hostOps0 W (main_arg7 : DevRef τ sig) = W (main_arg7 : DevRef τ sig) :=
  after_of_forall_not_mem _ _ (List.forall_iff_forall_mem.mp (by
    simp only [Gen.hostOps0, List.Forall, nullary_writes, unary_writes, binary_writes, ternary_writes, reshape_writes, Finset.mem_singleton]
    repeat' apply And.intro
    all_goals exact devRef_ne_of_ne (by decide)))
theorem keep1_v6 (W : Valuation τ sig (Elt F)) : after Gen.hostOps0_1 W (main_v6 : DevRef τ sig) = W (main_v6 : DevRef τ sig) :=
  after_of_forall_not_mem _ _ (List.forall_iff_forall_mem.mp (by
    simp only [Gen.hostOps0_1, List.Forall, nullary_writes, unary_writes, binary_writes, ternary_writes, reshape_writes, Finset.mem_singleton]
    repeat' apply And.intro
    all_goals exact devRef_ne_of_ne (by decide)))
theorem keep2_v6 (W : Valuation τ sig (Elt F)) : after Gen.hostOps0_2 W (main_v6 : DevRef τ sig) = W (main_v6 : DevRef τ sig) :=
  after_of_forall_not_mem _ _ (List.forall_iff_forall_mem.mp (by
    simp only [Gen.hostOps0_2, List.Forall, nullary_writes, unary_writes, binary_writes, ternary_writes, reshape_writes, Finset.mem_singleton]
    repeat' apply And.intro
    all_goals exact devRef_ne_of_ne (by decide)))
theorem keep3_v6 (W : Valuation τ sig (Elt F)) : after Gen.hostOps0_3 W (main_v6 : DevRef τ sig) = W (main_v6 : DevRef τ sig) :=
  after_of_forall_not_mem _ _ (List.forall_iff_forall_mem.mp (by
    simp only [Gen.hostOps0_3, List.Forall, nullary_writes, unary_writes, binary_writes, ternary_writes, reshape_writes, Finset.mem_singleton]
    repeat' apply And.intro
    all_goals exact devRef_ne_of_ne (by decide)))
theorem keep4_v6 (W : Valuation τ sig (Elt F)) : after Gen.hostOps0_4 W (main_v6 : DevRef τ sig) = W (main_v6 : DevRef τ sig) :=
  after_of_forall_not_mem _ _ (List.forall_iff_forall_mem.mp (by
    simp only [Gen.hostOps0_4, List.Forall, nullary_writes, unary_writes, binary_writes, ternary_writes, reshape_writes, Finset.mem_singleton]
    repeat' apply And.intro
    all_goals exact devRef_ne_of_ne (by decide)))
theorem keep5_v6 (W : Valuation τ sig (Elt F)) : after Gen.hostOps0_5 W (main_v6 : DevRef τ sig) = W (main_v6 : DevRef τ sig) :=
  after_of_forall_not_mem _ _ (List.forall_iff_forall_mem.mp (by
    simp only [Gen.hostOps0_5, List.Forall, nullary_writes, unary_writes, binary_writes, ternary_writes, reshape_writes, Finset.mem_singleton]
    repeat' apply And.intro
    all_goals exact devRef_ne_of_ne (by decide)))
theorem keep6_v6 (W : Valuation τ sig (Elt F)) : after Gen.hostOps0_6 W (main_v6 : DevRef τ sig) = W (main_v6 : DevRef τ sig) :=
  after_of_forall_not_mem _ _ (List.forall_iff_forall_mem.mp (by
    simp only [Gen.hostOps0_6, List.Forall, nullary_writes, unary_writes, binary_writes, ternary_writes, reshape_writes, Finset.mem_singleton]
    repeat' apply And.intro
    all_goals exact devRef_ne_of_ne (by decide)))
theorem keep7a_v6 (W : Valuation τ sig (Elt F)) : after ta W (main_v6 : DevRef τ sig) = W (main_v6 : DevRef τ sig) :=
  after_of_forall_not_mem _ _ (List.forall_iff_forall_mem.mp (by
    simp only [ta, List.Forall, nullary_writes, unary_writes, binary_writes, ternary_writes, reshape_writes, Finset.mem_singleton]
    repeat' apply And.intro
    all_goals exact devRef_ne_of_ne (by decide)))
theorem keep7b_v6 (W : Valuation τ sig (Elt F)) : after tb W (main_v6 : DevRef τ sig) = W (main_v6 : DevRef τ sig) :=
  after_of_forall_not_mem _ _ (List.forall_iff_forall_mem.mp (by
    simp only [tb, List.Forall, nullary_writes, unary_writes, binary_writes, ternary_writes, reshape_writes, Finset.mem_singleton]
    repeat' apply And.intro
    all_goals exact devRef_ne_of_ne (by decide)))
theorem keep7b_ix (W : Valuation τ sig (Elt F)) : after tb W (main_call3_v5 : DevRef τ sig) = W (main_call3_v5 : DevRef τ sig) :=
  after_of_forall_not_mem _ _ (List.forall_iff_forall_mem.mp (by
    simp only [tb, List.Forall, nullary_writes, unary_writes, binary_writes, ternary_writes, reshape_writes, Finset.mem_singleton]
    repeat' apply And.intro
    all_goals exact devRef_ne_of_ne (by decide)))

/-- Stretch 7, whole: the per-sample scale taken at each atom's sample. -/
theorem st7 (W : Valuation τ sig (Elt F)) :
    after Gen.hostOps0_7 W (main_v23 : DevRef τ sig) = takeFill (W (main_v6 : DevRef τ sig)) (W (main_v22 : DevRef τ sig)) := by
  rw [take_split, after_append, after_append, st7c, st7b, keep7b_v6, keep7b_ix, keep7a_v6, st7a]
  rfl

/-- THE PREFIX leaves the per-atom scale of the three arrays as it found them. -/
theorem glue (V : Valuation τ sig (Elt F)) :
    after pre V (main_v23 : DevRef τ sig) = scaleAtom (V (main_arg5 : DevRef τ sig)) (V (main_arg6 : DevRef τ sig)) (V (main_arg7 : DevRef τ sig)) := by
  rw [after_pre, st7, st6, st5, st4, st3, st2, st1, keep0_arg7, keep6_v6, keep5_v6, keep4_v6, keep3_v6, keep2_v6, keep1_v6, st0]
  rfl

/-- The prefix writes no argument: `main_arg1` is as it found it. -/
theorem pre_keeps_arg1 (V : Valuation τ sig (Elt F)) : after pre V (main_arg1 : DevRef τ sig) = V (main_arg1 : DevRef τ sig) :=
  after_of_forall_not_mem _ _ (List.forall_iff_forall_mem.mp (by
    simp only [pre, Gen.hostOps0, Gen.hostOps0_1, Gen.hostOps0_2, Gen.hostOps0_3, Gen.hostOps0_4, Gen.hostOps0_5, Gen.hostOps0_6, Gen.hostOps0_7, List.cons_append, List.nil_append, List.Forall, nullary_writes, unary_writes, binary_writes, ternary_writes, reshape_writes, Finset.mem_singleton]
    repeat' apply And.intro
    all_goals exact devRef_ne_of_ne (by decide)))
/-- The prefix writes no argument: `main_arg2` is as it found it. -/
theorem pre_keeps_arg2 (V : Valuation τ sig (Elt F)) : after pre V (main_arg2 : DevRef τ sig) = V (main_arg2 : DevRef τ sig) :=
  after_of_forall_not_mem _ _ (List.forall_iff_forall_mem.mp (by
    simp only [pre, Gen.hostOps0, Gen.hostOps0_1, Gen.hostOps0_2, Gen.hostOps0_3, Gen.hostOps0_4, Gen.hostOps0_5, Gen.hostOps0_6, Gen.hostOps0_7, List.cons_append, List.nil_append, List.Forall, nullary_writes, unary_writes, binary_writes, ternary_writes, reshape_writes, Finset.mem_singleton]
    repeat' apply And.intro
    all_goals exact devRef_ne_of_ne (by decide)))
/-- The prefix writes no argument: `main_arg4` is as it found it. -/
theorem pre_keeps_arg4 (V : Valuation τ sig (Elt F)) : after pre V (main_arg4 : DevRef τ sig) = V (main_arg4 : DevRef τ sig) :=
  after_of_forall_not_mem _ _ (List.forall_iff_forall_mem.mp (by
    simp only [pre, Gen.hostOps0, Gen.hostOps0_1, Gen.hostOps0_2, Gen.hostOps0_3, Gen.hostOps0_4, Gen.hostOps0_5, Gen.hostOps0_6, Gen.hostOps0_7, List.cons_append, List.nil_append, List.Forall, nullary_writes, unary_writes, binary_writes, ternary_writes, reshape_writes, Finset.mem_singleton]
    repeat' apply And.intro
    all_goals exact devRef_ne_of_ne (by decide)))

end Cert.Noiser.GlueK

end
-- ==== Proof.RegionEntry.lean ====
/-
  What the four arrays the kernel reads hold when its region is entered.

  The last stretch of host operations before the region re-lays each of `x_mid`, `x_mid_prev`, `noise_x` — arrays of
  4194304 atoms by 3 coordinates — as 12288 rows of 1024 (the same elements in row-major order), and does the same with the
  per-atom noise scale after repeating it along the three coordinates. The stretches before it leave the per-atom
  scale (`scaleAtom` of `noise_scales`, `t`, `num_atoms`) and write none of the three arrays.
-/
import proofs.«116200_j72103910966019_2_alg».proof.Proof.Gen.KernelIdeal.Frame
import proofs.«116200_j72103910966019_2_alg».proof.Proof.GlueK

noncomputable section

namespace Cert.Noiser.Entry

open Idealize.ShloMosaic Idealize.ShloMosaic.TcCoe Idealize.SL.Sem Idealize.ShloMosaic.StableHlo
open Cert.KernelIdeal Cert.KernelIdeal.Gen Cert.Noiser

variable {F : FTy → Type} [FloatOps F]

/-- The last stretch re-lays `x_mid`. -/
theorem last_x (W : Valuation τ sig (Elt F)) :
    after hostOps0_8 W (main_v24 : DevRef τ sig) = shapeCast S12288x1024 (W (main_arg1 : DevRef τ sig)) Facts₀.shapeCasts_S4194304x3_S12288x1024 := by
  after_results
  rfl

/-- The last stretch re-lays `x_mid_prev`. -/
theorem last_xp (W : Valuation τ sig (Elt F)) :
    after hostOps0_8 W (main_v25 : DevRef τ sig) = shapeCast S12288x1024 (W (main_arg2 : DevRef τ sig)) Facts₀.shapeCasts_S4194304x3_S12288x1024 := by
  after_results
  rfl

/-- The last stretch re-lays `noise_x`. -/
theorem last_noise (W : Valuation τ sig (Elt F)) :
    after hostOps0_8 W (main_v26 : DevRef τ sig) = shapeCast S12288x1024 (W (main_arg4 : DevRef τ sig)) Facts₀.shapeCasts_S4194304x3_S12288x1024 := by
  after_results
  rfl

/-- The last stretch repeats the per-atom scale along the coordinates and re-lays it. -/
theorem last_scale (W : Valuation τ sig (Elt F)) :
    after hostOps0_8 W (main_v29 : DevRef τ sig)
      = shapeCast S12288x1024 (scaleRows (W (main_v23 : DevRef τ sig))) Facts₀.shapeCasts_S4194304x3_S12288x1024 := by
  after_results
  rfl

variable (m : (ℓ : Loc nD τ sig) → Buf (Elt F) ℓ)

/-- The contents at the region's entry: the last stretch after the eight before it. -/
theorem entry_split (c : Dev nD) : V0 m c = after hostOps0_8 (after GlueK.pre (fun b => m (c, b))) := by
  show after (List.flatten [hostOps0, hostOps0_1, hostOps0_2, hostOps0_3, hostOps0_4, hostOps0_5, hostOps0_6, hostOps0_7, hostOps0_8])
    (fun b => m (c, b)) = _
  simp only [List.flatten_cons, List.flatten_nil, List.append_nil, GlueK.pre, after_append]

/-- `x_mid` as 12288 rows of 1024. -/
theorem entry_x (c : Dev nD) :
    (V m c main_v24 : (⟨S12288x1024, .f32⟩ : BufTy).Contents (Elt F))
      = shapeCast S12288x1024 (m ((c : Thread nD τ).loc main_arg1)) Facts₀.shapeCasts_S4194304x3_S12288x1024 := by
  show V0 m c (main_v24 : DevRef τ sig) = _
  rw [entry_split, last_x, GlueK.pre_keeps_arg1]

/-- `x_mid_prev` as 12288 rows of 1024. -/
theorem entry_xp (c : Dev nD) :
    (V m c main_v25 : (⟨S12288x1024, .f32⟩ : BufTy).Contents (Elt F))
      = shapeCast S12288x1024 (m ((c : Thread nD τ).loc main_arg2)) Facts₀.shapeCasts_S4194304x3_S12288x1024 := by
  show V0 m c (main_v25 : DevRef τ sig) = _
  rw [entry_split, last_xp, GlueK.pre_keeps_arg2]

/-- `noise_x` as 12288 rows of 1024. -/
theorem entry_noise (c : Dev nD) :
    (V m c main_v26 : (⟨S12288x1024, .f32⟩ : BufTy).Contents (Elt F))
      = shapeCast S12288x1024 (m ((c : Thread nD τ).loc main_arg4)) Facts₀.shapeCasts_S4194304x3_S12288x1024 := by
  show V0 m c (main_v26 : DevRef τ sig) = _
  rw [entry_split, last_noise, GlueK.pre_keeps_arg4]

/-- The per-atom scale, repeated along the three coordinates, as 12288 rows of 1024. -/
theorem entry_scale (c : Dev nD) :
    (V m c main_v29 : (⟨S12288x1024, .f32⟩ : BufTy).Contents (Elt F))
      = shapeCast S12288x1024
          (scaleRows (scaleAtom (m ((c : Thread nD τ).loc main_arg5)) (m ((c : Thread nD τ).loc main_arg6))
            (m ((c : Thread nD τ).loc main_arg7))))
          Facts₀.shapeCasts_S4194304x3_S12288x1024 := by
  show V0 m c (main_v29 : DevRef τ sig) = _
  rw [entry_split, last_scale, GlueK.glue]

end Cert.Noiser.Entry

end
-- ==== Proof.Spec.lean ====
/-
  The two results, as functions of whole arrays of any one shape.

  `noised x s n` is `x + s · n`, element by element: the positions with scaled noise added.
  `target xp xt` is `(xp − xt) / δ`, element by element, `δ` the single-precision number nearest 1/999 — the
  SAME word in the kernel and in the reference, so its value is never needed.
  Both are built from the element-by-element operations alone, so they commute with any re-laying of the arrays.
-/
import Idealize.ShloMosaic.PureOps

noncomputable section

namespace Cert.Noiser

open Idealize.ShloMosaic

variable {F : FTy → Type} [FloatOps F]

/-- `x + s · n`, element by element. -/
def noised {S : Shape} (x s n : FVec F S .f32) : FVec F S .f32 := addf x (mulf s n)

/-- `(xp − xt) / δ`, element by element. -/
def target {S : Shape} (xp xt : FVec F S .f32) : FVec F S .f32 :=
  divf (subf xp xt) (broadcast S (FloatOps.ofBits .f32 0x3A833405#32))

/-- Re-laying the arrays first and computing after is computing first and re-laying after. -/
theorem noised_shapeCast {S T : Shape} (h : S.ShapeCasts T) (x s n : FVec F S .f32) :
    noised (shapeCast T x h) (shapeCast T s h) (shapeCast T n h) = shapeCast T (noised x s n) h := rfl

/-- The same for the second result. -/
theorem target_shapeCast {S T : Shape} (h : S.ShapeCasts T) (xp xt : FVec F S .f32) :
    target (shapeCast T xp h) (shapeCast T xt h) = shapeCast T (target xp xt) h := rfl

end Cert.Noiser

end
-- ==== Proof.Blocks.lean ====
/-
  From blocks to whole arrays.

  The kernel runs at 24 grid points. At point `t` every one of its six windows is block `t` of its array: rows
  `512·t … 512·t + 511`, all 1024 columns. The body loads the four input blocks whole, computes
  `x + s·n` and `(xp − (x + s·n))/δ` element by element, and stores each whole. So what point `t` writes back to either
  output is block `t` of ONE function of the whole input arrays (`noised`, `target`), and since the 24 blocks tile the 12288
  rows, each output array ends holding that function.
-/
import proofs.«116200_j72103910966019_2_alg».proof.Proof.Gen.KernelIdeal.Frame
import proofs.«116200_j72103910966019_2_alg».proof.Proof.Spec
import Idealize.ShloMosaic.Lib.Pipeline.Value

noncomputable section

namespace Cert.Noiser.Blocks

open Cert.KernelIdeal Cert.KernelIdeal.Gen Idealize.ShloMosaic Idealize.ShloMosaic.TcCoe Idealize.SL.Sem
open Idealize.ShloMosaic.Pipeline (Dat)
open Cert.Noiser

variable {F : FTy → Type} [FloatOps F]
variable (m : (ℓ : Loc nD τ sig) → Buf (Elt F) ℓ)

theorem zero_offsets : (![0, 0] : Fin 2 → Nat) = fun _ => 0 := funext fun a => by fin_cases a <;> rfl

/-- The first store's value: the block-wise `x + s·n` (a cast of a block to its own shape changes nothing). -/
theorem stored_noised (x s n : Vec F S512x1024 .f32) : k0_pay1 x s n = noised (F := F) x s n := by
  unfold k0_pay1 noised
  simp only [shapeCast_self]

/-- The second store's value: the block-wise `(xp − (x + s·n))/δ`. -/
theorem stored_target (x s n xp : Vec F S512x1024 .f32) : k0_pay2 x s n xp = target (F := F) xp (noised (F := F) x s n) := by
  unfold k0_pay2 target
  rw [stored_noised x s n]
  simp only [shapeCast_self]

/-- All six windows sit at the same block of their arrays at every point: row-block `t`, column-block 0. -/
theorem same_block : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2)
    ∧ win0_5.index t (0 : Fin 2) = win0_4.index t (0 : Fin 2) ∧ win0_5.index t (1 : Fin 2) = win0_4.index t (1 : Fin 2)
    ∧ win0_4.index t (0 : Fin 2) ≤ 23 ∧ win0_4.index t (1 : Fin 2) = 0 :=
  (by decide +kernel : ∀ t : Fin grid0.N, _)

/-- Every row-block is some point's. -/
theorem every_block : ∀ q : Fin 24, ∃ t : Fin cfg0.N, win0_4.index t = ![q.val, 0] ∧ win0_5.index t = ![q.val, 0] :=
  (by decide +kernel : ∀ q : Fin 24, ∃ t : Fin grid0.N, win0_4.index t = ![q.val, 0] ∧ win0_5.index t = ![q.val, 0])

/-- An element of an input block sits in its array where the same element of the first output's block sits in its. -/
theorem emb0 (t : Fin cfg0.N) (j : S512x1024.Idx) : ((cfg0.win 0).blk t).view.emb j = ((cfg0.win 4).blk t).view.emb j := by
  obtain ⟨e00, e01, e10, e11, e20, e21, e30, e31, e50, e51, -, -⟩ := same_block t
  funext a; apply Fin.ext
  match a with
  | ⟨0, _⟩ => show win0_0.index t (0 : Fin 2) * 512 + 1 * (j 0).val = win0_4.index t (0 : Fin 2) * 512 + 1 * (j 0).val; omega
  | ⟨1, _⟩ => show win0_0.index t (1 : Fin 2) * 1024 + 1 * (j 1).val = win0_4.index t (1 : Fin 2) * 1024 + 1 * (j 1).val; omega
theorem emb1 (t : Fin cfg0.N) (j : S512x1024.Idx) : ((cfg0.win 1).blk t).view.emb j = ((cfg0.win 4).blk t).view.emb j := by
  obtain ⟨e00, e01, e10, e11, e20, e21, e30, e31, e50, e51, -, -⟩ := same_block t
  funext a; apply Fin.ext
  match a with
  | ⟨0, _⟩ => show win0_1.index t (0 : Fin 2) * 512 + 1 * (j 0).val = win0_4.index t (0 : Fin 2) * 512 + 1 * (j 0).val; omega
  | ⟨1, _⟩ => show win0_1.index t (1 : Fin 2) * 1024 + 1 * (j 1).val = win0_4.index t (1 : Fin 2) * 1024 + 1 * (j 1).val; omega
theorem emb2 (t : Fin cfg0.N) (j : S512x1024.Idx) : ((cfg0.win 2).blk t).view.emb j = ((cfg0.win 4).blk t).view.emb j := by
  obtain ⟨e00, e01, e10, e11, e20, e21, e30, e31, e50, e51, -, -⟩ := same_block t
  funext a; apply Fin.ext
  match a with
  | ⟨0, _⟩ => show win0_2.index t (0 : Fin 2) * 512 + 1 * (j 0).val = win0_4.index t (0 : Fin 2) * 512 + 1 * (j 0).val; omega
  | ⟨1, _⟩ => show win0_2.index t (1 : Fin 2) * 1024 + 1 * (j 1).val = win0_4.index t (1 : Fin 2) * 1024 + 1 * (j 1).val; omega
theorem emb3 (t : Fin cfg0.N) (j : S512x1024.Idx) : ((cfg0.win 3).blk t).view.emb j = ((cfg0.win 4).blk t).view.emb j := by
  obtain ⟨e00, e01, e10, e11, e20, e21, e30, e31, e50, e51, -, -⟩ := same_block t
  funext a; apply Fin.ext
  match a with
  | ⟨0, _⟩ => show win0_3.index t (0 : Fin 2) * 512 + 1 * (j 0).val = win0_4.index t (0 : Fin 2) * 512 + 1 * (j 0).val; omega
  | ⟨1, _⟩ => show win0_3.index t (1 : Fin 2) * 1024 + 1 * (j 1).val = win0_4.index t (1 : Fin 2) * 1024 + 1 * (j 1).val; omega
theorem emb5 (t : Fin cfg0.N) (j : S512x1024.Idx) : ((cfg0.win 5).blk t).view.emb j = ((cfg0.win 4).blk t).view.emb j := by
  obtain ⟨e00, e01, e10, e11, e20, e21, e30, e31, e50, e51, -, -⟩ := same_block t
  funext a; apply Fin.ext
  match a with
  | ⟨0, _⟩ => show win0_5.index t (0 : Fin 2) * 512 + 1 * (j 0).val = win0_4.index t (0 : Fin 2) * 512 + 1 * (j 0).val; omega
  | ⟨1, _⟩ => show win0_5.index t (1 : Fin 2) * 1024 + 1 * (j 1).val = win0_4.index t (1 : Fin 2) * 1024 + 1 * (j 1).val; omega

/-! What a point writes back, for ANY contents of the four input arrays. -/

section AnyArrays
variable (A0 A1 A2 A3 : S12288x1024.Idx → Elt F .f32)

/-- The body's first result on block `t` of four arrays is block `t` of `x + s·n` of the arrays. -/
theorem block_noised (t : Fin cfg0.N) :
    (cfg0.win 4).cut (grid0.coords t) (out0_4 (((cfg0.win 0).blk t).view.read (Elt F) A0) (((cfg0.win 1).blk t).view.read (Elt F) A1) (((cfg0.win 2).blk t).view.read (Elt F) A2) (((cfg0.win 3).blk t).view.read (Elt F) A3))
      = ((cfg0.win 4).blk t).view.read (Elt F) (noised (F := F) A0 A3 A2) := by
  unfold out0_4
  rw [View.canon_unit_zero zero_offsets]
  simp only [View.ld_unit_zero (S := S512x1024) zero_offsets]
  rw [stored_noised]
  funext j
  show FloatOps.addf (A0 (((cfg0.win 0).blk t).view.emb j))
      (FloatOps.mulf (A3 (((cfg0.win 3).blk t).view.emb j)) (A2 (((cfg0.win 2).blk t).view.emb j)))
    = FloatOps.addf (A0 (((cfg0.win 4).blk t).view.emb j))
      (FloatOps.mulf (A3 (((cfg0.win 4).blk t).view.emb j)) (A2 (((cfg0.win 4).blk t).view.emb j)))
  rw [emb0 t j, emb3 t j, emb2 t j]

/-- The body's second result on block `t` is block `t` of `(xp − (x + s·n))/δ` of the arrays. -/
theorem block_target (t : Fin cfg0.N) :
    (cfg0.win 5).cut (grid0.coords t) (out0_5 (((cfg0.win 0).blk t).view.read (Elt F) A0) (((cfg0.win 1).blk t).view.read (Elt F) A1) (((cfg0.win 2).blk t).view.read (Elt F) A2) (((cfg0.win 3).blk t).view.read (Elt F) A3))
      = ((cfg0.win 5).blk t).view.read (Elt F) (target (F := F) A1 (noised (F := F) A0 A3 A2)) := by
  unfold out0_5
  rw [View.canon_unit_zero zero_offsets]
  simp only [View.ld_unit_zero (S := S512x1024) zero_offsets]
  rw [stored_target]
  funext j
  show FloatOps.divf (FloatOps.subf (A1 (((cfg0.win 1).blk t).view.emb j))
        (FloatOps.addf (A0 (((cfg0.win 0).blk t).view.emb j))
          (FloatOps.mulf (A3 (((cfg0.win 3).blk t).view.emb j)) (A2 (((cfg0.win 2).blk t).view.emb j)))))
      (FloatOps.ofBits .f32 0x3A833405#32)
    = FloatOps.divf (FloatOps.subf (A1 (((cfg0.win 5).blk t).view.emb j))
        (FloatOps.addf (A0 (((cfg0.win 5).blk t).view.emb j))
          (FloatOps.mulf (A3 (((cfg0.win 5).blk t).view.emb j)) (A2 (((cfg0.win 5).blk t).view.emb j)))))
      (FloatOps.ofBits .f32 0x3A833405#32)
  rw [emb0 t j, emb1 t j, emb2 t j, emb3 t j, emb5 t j]

end AnyArrays

/-- WHAT POINT `t` WRITES BACK to the first output is block `t` of `x + s·n` of the arrays as the region finds them. -/
theorem flushed_noised (c : Dev nD) (t : Fin cfg0.N) :
    (dats m 0 c).flushed 4 t = ((cfg0.win 4).blk t).view.read (Elt F) (noised (F := F) (V m c (Pipeline.arrRef spec0 0)) (V m c (Pipeline.arrRef spec0 3)) (V m c (Pipeline.arrRef spec0 2))) := by
  show (cfg0.win 4).cut (grid0.coords t) ((dats m 0 c).after 4 t) = _
  rw [after0_4]
  exact block_noised (V m c (Pipeline.arrRef spec0 0)) (V m c (Pipeline.arrRef spec0 1)) (V m c (Pipeline.arrRef spec0 2)) (V m c (Pipeline.arrRef spec0 3)) t

/-- WHAT POINT `t` WRITES BACK to the second output is block `t` of `(xp − (x + s·n))/δ`. -/
theorem flushed_target (c : Dev nD) (t : Fin cfg0.N) :
    (dats m 0 c).flushed 5 t
      = ((cfg0.win 5).blk t).view.read (Elt F) (target (F := F) (V m c (Pipeline.arrRef spec0 1)) (noised (F := F) (V m c (Pipeline.arrRef spec0 0)) (V m c (Pipeline.arrRef spec0 3)) (V m c (Pipeline.arrRef spec0 2)))) := by
  show (cfg0.win 5).cut (grid0.coords t) ((dats m 0 c).after 5 t) = _
  rw [after0_5]
  exact block_target (V m c (Pipeline.arrRef spec0 0)) (V m c (Pipeline.arrRef spec0 1)) (V m c (Pipeline.arrRef spec0 2)) (V m c (Pipeline.arrRef spec0 3)) t

/-- An index of the first output's array is in point `t`'s block iff each coordinate is in the block's range. -/
theorem mem_block4 (t : Fin cfg0.N) (i : S12288x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v30_0).slice (win0_4.rect t)).set ↔ _
  rw [View.set_slice_whole, Rect.mem_set_unit]
  exact Iff.rfl

theorem mem_block5 (t : Fin cfg0.N) (i : S12288x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v30_1).slice (win0_5.rect t)).set ↔ _
  rw [View.set_slice_whole, Rect.mem_set_unit]
  exact Iff.rfl

/-- The 24 blocks tile the 12288 rows: row `r` is in the block of the point at `r / 512`. -/
theorem covered4 (i : S12288x1024.Idx) : ∃ t : Fin cfg0.N, (cfg0.win 4).flush t = true ∧ i ∈ ((cfg0.win 4).blk t).view.set := by
  have hi0 : (i 0).val < 12288 := (i 0).isLt
  have hi1 : (i 1).val < 1024 := (i 1).isLt
  obtain ⟨t, ht, -⟩ := every_block ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_block4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

theorem covered5 (i : S12288x1024.Idx) : ∃ t : Fin cfg0.N, (cfg0.win 5).flush t = true ∧ i ∈ ((cfg0.win 5).blk t).view.set := by
  have hi0 : (i 0).val < 12288 := (i 0).isLt
  have hi1 : (i 1).val < 1024 := (i 1).isLt
  obtain ⟨t, -, ht⟩ := every_block ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_block5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE FIRST OUTPUT ARRAY after the region: `x + s·n` of whatever the four input arrays held at its entry. -/
theorem final_noised (c : Dev nD) (A0 A1 A2 A3 : S12288x1024.Idx → Elt F .f32)
    (h0 : (V m c (Pipeline.arrRef spec0 0)) = A0) (h1 : (V m c (Pipeline.arrRef spec0 1)) = A1) (h2 : (V m c (Pipeline.arrRef spec0 2)) = A2) (h3 : (V m c (Pipeline.arrRef spec0 3)) = A3) :
    (dats m 0 c).arrAt 4 cfg0.N = noised (F := F) A0 A3 A2 := by
  subst h0 h1 h2 h3
  exact (dats m 0 c).arrAt_eq_of_cover 4 _ (fun t _ => flushed_noised m c t) covered4

/-- THE SECOND OUTPUT ARRAY after the region: `(xp − (x + s·n))/δ`. -/
theorem final_target (c : Dev nD) (A0 A1 A2 A3 : S12288x1024.Idx → Elt F .f32)
    (h0 : (V m c (Pipeline.arrRef spec0 0)) = A0) (h1 : (V m c (Pipeline.arrRef spec0 1)) = A1) (h2 : (V m c (Pipeline.arrRef spec0 2)) = A2) (h3 : (V m c (Pipeline.arrRef spec0 3)) = A3) :
    (dats m 0 c).arrAt 5 cfg0.N = target (F := F) A1 (noised (F := F) A0 A3 A2) := by
  subst h0 h1 h2 h3
  exact (dats m 0 c).arrAt_eq_of_cover 5 _ (fun t _ => flushed_target m c t) covered5

end Cert.Noiser.Blocks

end
-- ==== Proof.KernelRun.lean ====
/-
  The kernel's program, run and read back.

  After the region the program re-lays each output array — 12288 rows of 1024 — back as 4194304 atoms by 3
  coordinates. The arrays the region found were themselves re-layings of the arguments (`x_mid`, `x_mid_prev`,
  `noise_x`, and the per-atom scale repeated along the coordinates), and both results are element-by-element functions,
  which commute with a re-laying; there and back is the identity. So the first result is `x_mid + s · noise_x` and
  the second `(x_mid_prev − first)/δ`, as functions of the arguments — at any reading of the floats.
-/
import proofs.«116200_j72103910966019_2_alg».proof.Proof.Gen.KernelIdeal.Frame
import proofs.«116200_j72103910966019_2_alg».proof.Proof.RegionEntry
import proofs.«116200_j72103910966019_2_alg».proof.Proof.Blocks
import Idealize.ShloMosaic.Lib.Pipeline.Value

noncomputable section

namespace Cert.Noiser.Kernel

open Cert.KernelIdeal Cert.KernelIdeal.Gen Cert.KernelIdeal.Facts₀
open Idealize.ShloMosaic Idealize.ShloMosaic.TcCoe Idealize.SL.Sem Idealize.ShloMosaic.StableHlo
open Idealize.ShloMosaic.Pipeline (Dat)
open Cert.Noiser Cert.Noiser.Entry Cert.Noiser.Blocks

variable {F : FTy → Type} [FloatOps F]
variable (m : (ℓ : Loc nD τ sig) → Buf (Elt F) ℓ) (ρ : Dev nD → PrngReg)

/-- The per-atom scale of the launch contents, repeated along the three coordinates. -/
abbrev rows (c : Dev nD) : (⟨S4194304x3, .f32⟩ : BufTy).Contents (Elt F) :=
  scaleRows (scaleAtom (m ((c : Thread nD τ).loc main_arg5)) (m ((c : Thread nD τ).loc main_arg6)) (m ((c : Thread nD τ).loc main_arg7)))

/-- The first output array after the region, in the arguments: the re-laying of `x_mid + s · noise_x`. -/
theorem array_noised (c : Dev nD) :
    (dats m 0 c).arrAt 4 cfg0.N
      = shapeCast S12288x1024
          (noised (F := F) (m ((c : Thread nD τ).loc main_arg1)) (rows m c) (m ((c : Thread nD τ).loc main_arg4)))
          Facts₀.shapeCasts_S4194304x3_S12288x1024 := by
  rw [final_noised m c _ _ _ _ (entry_x m c) (entry_xp m c) (entry_noise m c) (entry_scale m c)]
  exact noised_shapeCast _ _ _ _

/-- The second output array after the region, in the arguments. -/
theorem array_target (c : Dev nD) :
    (dats m 0 c).arrAt 5 cfg0.N
      = shapeCast S12288x1024
          (target (F := F) (m ((c : Thread nD τ).loc main_arg2))
            (noised (F := F) (m ((c : Thread nD τ).loc main_arg1)) (rows m c) (m ((c : Thread nD τ).loc main_arg4))))
          Facts₀.shapeCasts_S4194304x3_S12288x1024 := by
  rw [final_target m c _ _ _ _ (entry_x m c) (entry_xp m c) (entry_noise m c) (entry_scale m c)]
  exact (congrArg (target _) (noised_shapeCast _ _ _ _)).trans (target_shapeCast _ _ _)

/-- The first result: the first output array re-laid as atoms by coordinates. -/
theorem tail_first (c : Dev nD) :
    Pipeline.afterTail₀ cfgs (dats m) 0 (V0 m) [hostOps1] c main_v31
      = noised (F := F) (m ((c : Thread nD τ).loc main_arg1)) (rows m c) (m ((c : Thread nD τ).loc main_arg4)) := by
  unfold Pipeline.afterTail₀
  show StableHlo.after hostOps1 _ (Proc.devRef .tc main_v31) = _
  after_results
  rw [Pipeline.withArrays_arr spec0 launch0.win.arr_inj c _ _ 4, array_noised m c]
  exact shapeCast_shapeCast _ _ _

/-- The second result: the second output array re-laid as atoms by coordinates. -/
theorem tail_second (c : Dev nD) :
    Pipeline.afterTail₀ cfgs (dats m) 0 (V0 m) [hostOps1] c main_v32
      = target (F := F) (m ((c : Thread nD τ).loc main_arg2))
          (noised (F := F) (m ((c : Thread nD τ).loc main_arg1)) (rows m c) (m ((c : Thread nD τ).loc main_arg4))) := by
  unfold Pipeline.afterTail₀
  show StableHlo.after hostOps1 _ (Proc.devRef .tc main_v32) = _
  after_results
  rw [Pipeline.withArrays_arr spec0 launch0.win.arr_inj c _ _ 5, array_target m c]
  exact shapeCast_shapeCast _ _ _

/-- THE KERNEL'S RUN: every weakly fair execution terminates with the two results at those functions of the arguments
    and the arguments unchanged. -/
theorem run : θ_run defs (onTc (τ := τ) (main (F := F))) ⟨m, fun _ => 0, ρ⟩ fun r => ∀ c : Dev nD,
      r.2.mem ((c : Thread nD τ).loc main_v31)
        = noised (F := F) (m ((c : Thread nD τ).loc main_arg1)) (rows m c) (m ((c : Thread nD τ).loc main_arg4))
      ∧ r.2.mem ((c : Thread nD τ).loc main_v32)
        = target (F := F) (m ((c : Thread nD τ).loc main_arg2))
            (noised (F := F) (m ((c : Thread nD τ).loc main_arg1)) (rows m c) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨
      ((h c).2 main_v31 (Pipeline.mem_restRefs_of main_v31 (by decide) (by decide))).trans (tail_first m c),
      ((h c).2 main_v32 (Pipeline.mem_restRefs_of main_v32 (by decide) (by decide))).trans (tail_second m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.Noiser.Kernel

end
-- ==== Proof.GlueR.lean ====
/-
  The chain of host operations that computes the per-atom noise scale, read a stretch at a time (the reference).

  The chain is eight stretches, the last of them (the masked take) read in three parts. Each is read at WHATEVER
  contents the buffers hold when it starts: the one buffer the stretch produces for later use is the stretch's function
  (Proof/ScaleGlue.lean) of the buffers it reads, and the buffers a later stretch still needs are not written. Chained,
  the whole prefix leaves in `main_v23` the composition `scaleAtom` of `noise_scales`, `t` and `num_atoms` as
  launched, and leaves `x_mid`, `x_mid_prev`, `noise_x` alone.
-/
import proofs.«116200_j72103910966019_2_alg».proof.Proof.Gen.ReferenceIdeal
import proofs.«116200_j72103910966019_2_alg».proof.Proof.ScaleGlue
import proofs.«116200_j72103910966019_2_alg».proof.Proof.LibHostFold
import Idealize.ShloMosaic.Lib.StableHlo.Run

noncomputable section

namespace Cert.Noiser.GlueR

open Cert.ReferenceIdeal Cert.ReferenceIdeal.Facts₀
open Idealize.ShloMosaic Idealize.ShloMosaic.TcCoe Idealize.SL.Sem Idealize.ShloMosaic.StableHlo
open Cert.Noiser

variable {F : FTy → Type} [FloatOps F]

/-- Stretch 0 of the chain (the per-sample scale): 9 operations. -/
abbrev g0 : List (HloOp τ sig (Elt F)) :=
  [ StableHlo.nullary main_c (constantI S_ 32 0#32),
    StableHlo.unary main_c main_v0 (broadcastInDim S32768 ![] bcast_S_S32768 : (⟨S_, .i32⟩ : BufTy).Contents (Elt F) → (⟨S32768, .i32⟩ : BufTy).Contents (Elt F)),
    StableHlo.binary main_arg6 main_v0 main_v1 (cmpi .slt : (⟨S32768, .i32⟩ : BufTy).Contents (Elt F) → (⟨S32768, .i32⟩ : BufTy).Contents (Elt F) → (⟨S32768, .i1⟩ : BufTy).Contents (Elt F)),
    StableHlo.nullary main_c_0 (constantI S_ 32 1000#32),
    StableHlo.unary main_c_0 main_v2 (broadcastInDim S32768 ![] bcast_S_S32768 : (⟨S_, .i32⟩ : BufTy).Contents (Elt F) → (⟨S32768, .i32⟩ : BufTy).Contents (Elt F)),
    StableHlo.binary main_arg6 main_v2 main_v3 (addi : (⟨S32768, .i32⟩ : BufTy).Contents (Elt F) → (⟨S32768, .i32⟩ : BufTy).Contents (Elt F) → (⟨S32768, .i32⟩ : BufTy).Contents (Elt F)),
    StableHlo.ternary main_v1 main_v3 main_arg6 main_v4 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v4 main_v5 (broadcastInDim S32768x1 ![0] bcast_S32768_S32768x1_0 : (⟨S32768, .i32⟩ : BufTy).Contents (Elt F) → (⟨S32768x1, .i32⟩ : BufTy).Contents (Elt F)),
    StableHlo.binary main_arg5 main_v5 main_v6 ((fun x i => Host.gather gather_S1000_S32768x1_S32768_n_0_n_n_0_1_1 x i) : (⟨S1000, .f32⟩ : BufTy).Contents (Elt F) → (⟨S32768x1, .i32⟩ : BufTy).Contents (Elt F) → (⟨S32768, .f32⟩ : BufTy).Contents (Elt F)) ]

/-- Stretch 1 of the chain (the roll): 3 operations. -/
abbrev g1 : List (HloOp τ sig (Elt F)) :=
  [ StableHlo.TRef.unary (.of main_arg7 : StableHlo.TRef sig ⟨S32768, .i32⟩) (.of main_call0_v0 : StableHlo.TRef sig ⟨S1, .i32⟩) (extractStridedSlice S1 ![32767] · slices_S32768_S1_32767),
    StableHlo.TRef.unary (.of main_arg7 : StableHlo.TRef sig ⟨S32768, .i32⟩) (.of main_call0_v1 : StableHlo.TRef sig ⟨S32767, .i32⟩) (extractStridedSlice S32767 ![0] · slices_S32768_S32767_0),
    StableHlo.TRef.binary (.of main_call0_v0 : StableHlo.TRef sig ⟨S1, .i32⟩) (.of main_call0_v1 : StableHlo.TRef sig ⟨S32767, .i32⟩) (.of main_v7 : StableHlo.TRef sig ⟨S32768, .i32⟩) (fun a b => concatenate S32768 0 [⟨S1, a⟩, ⟨S32767, b⟩] concatenates_S1_S32767_S32768_d0) ]

/-- Stretch 2 of the chain (the first entry zeroed): 4 operations. -/
abbrev g2 : List (HloOp τ sig (Elt F)) :=
  [ StableHlo.nullary main_c_1 (constantI S_ 32 0#32),
    StableHlo.unary main_c_1 main_v8 (broadcastInDim S1 ![] bcast_S_S1 : (⟨S_, .i32⟩ : BufTy).Contents (Elt F) → (⟨S1, .i32⟩ : BufTy).Contents (Elt F)),
    StableHlo.nullary main_c_2 (constantI S_ 32 0#32),
    StableHlo.ternary main_v7 main_v8 main_c_2 main_v9 ((fun x i u => Host.scatter scatter_S32768_S1_S__n_0_0_0 (fun _ b => b) x i u) : (⟨S32768, .i32⟩ : BufTy).Contents (Elt F) → (⟨S1, .i32⟩ : BufTy).Contents (Elt F) → (⟨S_, .i32⟩ : BufTy).Contents (Elt F) → (⟨S32768, .i32⟩ : BufTy).Contents (Elt F)) ]

/-- Stretch 3 of the chain (the running sum along the samples): 3 operations. -/
abbrev g3 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v9 : StableHlo.TRef sig ⟨S32768, .i32⟩) (.of main_call1_call0_v0 : StableHlo.TRef sig ⟨S_, .i32⟩) (.of main_v10 : StableHlo.TRef sig ⟨S32768, .i32⟩) (fun x v => Host.reduceWindow IntOp.addi ![32768] ![1] ![32767] ![0] x v reduceWindows_S32768_S32768_w32768s1p32767_0 h_S_) ]

/-- Stretch 4 of the chain (a one added at every start): 13 operations. -/
abbrev g4 : List (HloOp τ sig (Elt F)) :=
  [ StableHlo.nullary main_c_3 (constantI S_ 32 0#32),
    StableHlo.unary main_c_3 main_v11 (broadcastInDim S4194304 ![] bcast_S_S4194304 : (⟨S_, .i32⟩ : BufTy).Contents (Elt F) → (⟨S4194304, .i32⟩ : BufTy).Contents (Elt F)),
    StableHlo.nullary main_c_4 (constantI S_ 32 0#32),
    StableHlo.unary main_c_4 main_v12 (broadcastInDim S32768 ![] bcast_S_S32768 : (⟨S_, .i32⟩ : BufTy).Contents (Elt F) → (⟨S32768, .i32⟩ : BufTy).Contents (Elt F)),
    StableHlo.binary main_v10 main_v12 main_v13 (cmpi .slt : (⟨S32768, .i32⟩ : BufTy).Contents (Elt F) → (⟨S32768, .i32⟩ : BufTy).Contents (Elt F) → (⟨S32768, .i1⟩ : BufTy).Contents (Elt F)),
    StableHlo.nullary main_c_5 (constantI S_ 32 4194304#32),
    StableHlo.unary main_c_5 main_v14 (broadcastInDim S32768 ![] bcast_S_S32768 : (⟨S_, .i32⟩ : BufTy).Contents (Elt F) → (⟨S32768, .i32⟩ : BufTy).Contents (Elt F)),
    StableHlo.binary main_v10 main_v14 main_v15 (addi : (⟨S32768, .i32⟩ : BufTy).Contents (Elt F) → (⟨S32768, .i32⟩ : BufTy).Contents (Elt F) → (⟨S32768, .i32⟩ : BufTy).Contents (Elt F)),
    StableHlo.ternary main_v13 main_v15 main_v10 main_v16 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v16 main_v17 (broadcastInDim S32768x1 ![0] bcast_S32768_S32768x1_0 : (⟨S32768, .i32⟩ : BufTy).Contents (Elt F) → (⟨S32768x1, .i32⟩ : BufTy).Contents (Elt F)),
    StableHlo.nullary main_c_6 (constantI S_ 32 1#32),
    StableHlo.unary main_c_6 main_v18 (broadcastInDim S32768 ![] bcast_S_S32768 : (⟨S_, .i32⟩ : BufTy).Contents (Elt F) → (⟨S32768, .i32⟩ : BufTy).Contents (Elt F)),
    StableHlo.ternary main_v11 main_v17 main_v18 main_v19 ((fun x i u => Host.scatter scatter_S4194304_S32768x1_S32768_n_0_0_1 IntOp.addi x i u) : (⟨S4194304, .i32⟩ : BufTy).Contents (Elt F) → (⟨S32768x1, .i32⟩ : BufTy).Contents (Elt F) → (⟨S32768, .i32⟩ : BufTy).Contents (Elt F) → (⟨S4194304, .i32⟩ : BufTy).Contents (Elt F)) ]

/-- Stretch 5 of the chain (the running sum along the atoms): 3 operations. -/
abbrev g5 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v19 : StableHlo.TRef sig ⟨S4194304, .i32⟩) (.of main_call2_call0_v0 : StableHlo.TRef sig ⟨S_, .i32⟩) (.of main_v20 : StableHlo.TRef sig ⟨S4194304, .i32⟩) (fun x v => Host.reduceWindow IntOp.addi ![4194304] ![1] ![4194303] ![0] x v reduceWindows_S4194304_S4194304_w4194304s1p4194303_0 h_S_) ]

/-- Stretch 6 of the chain (minus one): 3 operations. -/
abbrev g6 : List (HloOp τ sig (Elt F)) :=
  [ StableHlo.nullary main_c_7 (constantI S_ 32 1#32),
    StableHlo.unary main_c_7 main_v21 (broadcastInDim S4194304 ![] bcast_S_S4194304 : (⟨S_, .i32⟩ : BufTy).Contents (Elt F) → (⟨S4194304, .i32⟩ : BufTy).Contents (Elt F)),
    StableHlo.binary main_v20 main_v21 main_v22 (subi : (⟨S4194304, .i32⟩ : BufTy).Contents (Elt F) → (⟨S4194304, .i32⟩ : BufTy).Contents (Elt F) → (⟨S4194304, .i32⟩ : BufTy).Contents (Elt F)) ]

/-- Stretch 7 of the chain (the masked take): 22 operations. -/
abbrev g7 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S4194304, .i32⟩) (broadcastInDim S4194304 ![] bcast_S_S4194304),
    StableHlo.TRef.binary (.of main_v22 : StableHlo.TRef sig ⟨S4194304, .i32⟩) (.of main_call3_v0 : StableHlo.TRef sig ⟨S4194304, .i32⟩) (.of main_call3_v1 : StableHlo.TRef sig ⟨S4194304, .i1⟩) (cmpi .slt),
    StableHlo.TRef.nullary (.of main_call3_c_0 : StableHlo.TRef sig ⟨S_, .i32⟩) (constantI S_ 32 32768#32),
    StableHlo.TRef.unary (.of main_call3_c_0 : StableHlo.TRef sig ⟨S_, .i32⟩) (.of main_call3_v2 : StableHlo.TRef sig ⟨S4194304, .i32⟩) (broadcastInDim S4194304 ![] bcast_S_S4194304),
    StableHlo.TRef.binary (.of main_v22 : StableHlo.TRef sig ⟨S4194304, .i32⟩) (.of main_call3_v2 : StableHlo.TRef sig ⟨S4194304, .i32⟩) (.of main_call3_v3 : StableHlo.TRef sig ⟨S4194304, .i32⟩) addi,
    StableHlo.TRef.ternary (.of main_call3_v1 : StableHlo.TRef sig ⟨S4194304, .i1⟩) (.of main_call3_v3 : StableHlo.TRef sig ⟨S4194304, .i32⟩) (.of main_v22 : StableHlo.TRef sig ⟨S4194304, .i32⟩) (.of main_call3_v4 : StableHlo.TRef sig ⟨S4194304, .i32⟩) select,
    StableHlo.TRef.unary main_call3_call0.v0 (.of main_call3_v5 : StableHlo.TRef sig ⟨S4194304x1, .i32⟩) (broadcastInDim S4194304x1 ![0] bcast_S4194304_S4194304x1_0),
    StableHlo.TRef.nullary (.of main_call3_c_1 : StableHlo.TRef sig ⟨S1, .i32⟩) (constantI S1 32 32767#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S4194304x1, .i32⟩) (broadcastInDim S4194304x1 ![] bcast_S_S4194304x1),
    StableHlo.TRef.binary (.of main_call3_v5 : StableHlo.TRef sig ⟨S4194304x1, .i32⟩) (.of main_call3_v6 : StableHlo.TRef sig ⟨S4194304x1, .i32⟩) (.of main_call3_v7 : StableHlo.TRef sig ⟨S4194304x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S4194304x1, .i32⟩) (broadcastInDim S4194304x1 ![0, 1] bcast_S1x1_S4194304x1_0_1),
    StableHlo.TRef.binary (.of main_call3_v5 : StableHlo.TRef sig ⟨S4194304x1, .i32⟩) (.of main_call3_v9 : StableHlo.TRef sig ⟨S4194304x1, .i32⟩) (.of main_call3_v10 : StableHlo.TRef sig ⟨S4194304x1, .i1⟩) (cmpi .sle),
    StableHlo.TRef.binary (.of main_call3_v7 : StableHlo.TRef sig ⟨S4194304x1, .i1⟩) (.of main_call3_v10 : StableHlo.TRef sig ⟨S4194304x1, .i1⟩) (.of main_call3_v11 : StableHlo.TRef sig ⟨S4194304x1, .i1⟩) andi,
    StableHlo.TRef.nullary (.of main_call3_c_3 : StableHlo.TRef sig ⟨S_, .i1⟩) (constantI S_ 1 1#1),
    StableHlo.TRef.binary (.of main_call3_v11 : StableHlo.TRef sig ⟨S4194304x1, .i1⟩) (.of main_call3_c_3 : StableHlo.TRef sig ⟨S_, .i1⟩) (.of main_call3_v12 : StableHlo.TRef sig ⟨S4194304, .i1⟩) (fun x v => Host.reduce IntOp.andi x v reducesTo_S4194304x1_S4194304_d1 h_S_),
    StableHlo.TRef.binary (.of main_v6 : StableHlo.TRef sig ⟨S32768, .f32⟩) (.of main_call3_v5 : StableHlo.TRef sig ⟨S4194304x1, .i32⟩) (.of main_call3_v13 : StableHlo.TRef sig ⟨S4194304, .f32⟩) (fun x i => Host.gather gather_S32768_S4194304x1_S4194304_n_0_n_n_0_1_1 x i),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S4194304, .f32⟩) (broadcastInDim S4194304 ![] bcast_S_S4194304),
    StableHlo.TRef.ternary (.of main_call3_v12 : StableHlo.TRef sig ⟨S4194304, .i1⟩) (.of main_call3_v13 : StableHlo.TRef sig ⟨S4194304, .f32⟩) (.of main_call3_v14 : StableHlo.TRef sig ⟨S4194304, .f32⟩) (.of main_v23 : StableHlo.TRef sig ⟨S4194304, .f32⟩) select ]

/-- The take, first part: the sample of each atom as a gather index (8 operations). -/
abbrev ta : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S4194304, .i32⟩) (broadcastInDim S4194304 ![] bcast_S_S4194304),
    StableHlo.TRef.binary (.of main_v22 : StableHlo.TRef sig ⟨S4194304, .i32⟩) (.of main_call3_v0 : StableHlo.TRef sig ⟨S4194304, .i32⟩) (.of main_call3_v1 : StableHlo.TRef sig ⟨S4194304, .i1⟩) (cmpi .slt),
    StableHlo.TRef.nullary (.of main_call3_c_0 : StableHlo.TRef sig ⟨S_, .i32⟩) (constantI S_ 32 32768#32),
    StableHlo.TRef.unary (.of main_call3_c_0 : StableHlo.TRef sig ⟨S_, .i32⟩) (.of main_call3_v2 : StableHlo.TRef sig ⟨S4194304, .i32⟩) (broadcastInDim S4194304 ![] bcast_S_S4194304),
    StableHlo.TRef.binary (.of main_v22 : StableHlo.TRef sig ⟨S4194304, .i32⟩) (.of main_call3_v2 : StableHlo.TRef sig ⟨S4194304, .i32⟩) (.of main_call3_v3 : StableHlo.TRef sig ⟨S4194304, .i32⟩) addi,
    StableHlo.TRef.ternary (.of main_call3_v1 : StableHlo.TRef sig ⟨S4194304, .i1⟩) (.of main_call3_v3 : StableHlo.TRef sig ⟨S4194304, .i32⟩) (.of main_v22 : StableHlo.TRef sig ⟨S4194304, .i32⟩) (.of main_call3_v4 : StableHlo.TRef sig ⟨S4194304, .i32⟩) select,
    StableHlo.TRef.unary main_call3_call0.v0 (.of main_call3_v5 : StableHlo.TRef sig ⟨S4194304x1, .i32⟩) (broadcastInDim S4194304x1 ![0] bcast_S4194304_S4194304x1_0) ]

/-- The take, second part: whether each index is in range (10 operations). -/
abbrev tb : List (HloOp τ sig (Elt F)) :=
  [ StableHlo.TRef.nullary (.of main_call3_c_1 : StableHlo.TRef sig ⟨S1, .i32⟩) (constantI S1 32 32767#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S4194304x1, .i32⟩) (broadcastInDim S4194304x1 ![] bcast_S_S4194304x1),
    StableHlo.TRef.binary (.of main_call3_v5 : StableHlo.TRef sig ⟨S4194304x1, .i32⟩) (.of main_call3_v6 : StableHlo.TRef sig ⟨S4194304x1, .i32⟩) (.of main_call3_v7 : StableHlo.TRef sig ⟨S4194304x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S4194304x1, .i32⟩) (broadcastInDim S4194304x1 ![0, 1] bcast_S1x1_S4194304x1_0_1),
    StableHlo.TRef.binary (.of main_call3_v5 : StableHlo.TRef sig ⟨S4194304x1, .i32⟩) (.of main_call3_v9 : StableHlo.TRef sig ⟨S4194304x1, .i32⟩) (.of main_call3_v10 : StableHlo.TRef sig ⟨S4194304x1, .i1⟩) (cmpi .sle),
    StableHlo.TRef.binary (.of main_call3_v7 : StableHlo.TRef sig ⟨S4194304x1, .i1⟩) (.of main_call3_v10 : StableHlo.TRef sig ⟨S4194304x1, .i1⟩) (.of main_call3_v11 : StableHlo.TRef sig ⟨S4194304x1, .i1⟩) andi,
    StableHlo.TRef.nullary (.of main_call3_c_3 : StableHlo.TRef sig ⟨S_, .i1⟩) (constantI S_ 1 1#1),
    StableHlo.TRef.binary (.of main_call3_v11 : StableHlo.TRef sig ⟨S4194304x1, .i1⟩) (.of main_call3_c_3 : StableHlo.TRef sig ⟨S_, .i1⟩) (.of main_call3_v12 : StableHlo.TRef sig ⟨S4194304, .i1⟩) (fun x v => Host.reduce IntOp.andi x v reducesTo_S4194304x1_S4194304_d1 h_S_) ]

/-- The take, third part: the gather and the choice against the fill value (4 operations). -/
abbrev tc : List (HloOp τ sig (Elt F)) :=
  [ StableHlo.TRef.binary (.of main_v6 : StableHlo.TRef sig ⟨S32768, .f32⟩) (.of main_call3_v5 : StableHlo.TRef sig ⟨S4194304x1, .i32⟩) (.of main_call3_v13 : StableHlo.TRef sig ⟨S4194304, .f32⟩) (fun x i => Host.gather gather_S32768_S4194304x1_S4194304_n_0_n_n_0_1_1 x i),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S4194304, .f32⟩) (broadcastInDim S4194304 ![] bcast_S_S4194304),
    StableHlo.TRef.ternary (.of main_call3_v12 : StableHlo.TRef sig ⟨S4194304, .i1⟩) (.of main_call3_v13 : StableHlo.TRef sig ⟨S4194304, .f32⟩) (.of main_call3_v14 : StableHlo.TRef sig ⟨S4194304, .f32⟩) (.of main_v23 : StableHlo.TRef sig ⟨S4194304, .f32⟩) select ]

/-- The take is its three parts, one after the other. -/
theorem take_split : (g7 : List (HloOp τ sig (Elt F))) = ta ++ (tb ++ tc) := rfl

/-- The eight stretches, one after the other: everything before the per-atom scale is used. -/
abbrev pre : List (HloOp τ sig (Elt F)) :=
  g0 ++ (g1 ++ (g2 ++ (g3 ++ (g4 ++ (g5 ++ (g6 ++ g7))))))

/-- Read a stretch at a time. -/
theorem after_pre (V : Valuation τ sig (Elt F)) :
    after pre V = after g7 (after g6 (after g5 (after g4 (after g3 (after g2 (after g1 (after g0 V))))))) := by
  simp only [pre, after_append]

section Stretches
attribute [local irreducible] Host.reduce Host.gather Host.scatter Host.reduceWindow concatenate extractStridedSlice

/-- Stretch 0 leaves the per-sample scale. -/
theorem st0 (W : Valuation τ sig (Elt F)) : after g0 W (main_v6 : DevRef τ sig) = scaleB (W (main_arg5 : DevRef τ sig)) (W (main_arg6 : DevRef τ sig)) := by
  after_results
  rfl

/-- Stretch 1 leaves the atom counts rolled. -/
theorem st1 (W : Valuation τ sig (Elt F)) : after g1 W (main_v7 : DevRef τ sig) = rolled (W (main_arg7 : DevRef τ sig)) := by
  after_results
  rfl

/-- Stretch 2 zeroes the first entry. -/
theorem st2 (W : Valuation τ sig (Elt F)) : after g2 W (main_v9 : DevRef τ sig) = firstZeroed (W (main_v7 : DevRef τ sig)) := by
  after_results
  rfl

/-- Stretch 3 sums along the samples. -/
theorem st3 (W : Valuation τ sig (Elt F)) : after g3 W (main_v10 : DevRef τ sig) = runningSumB (W (main_v9 : DevRef τ sig)) := by
  after_results
  rfl

/-- Stretch 4 marks every sample's first atom. -/
theorem st4 (W : Valuation τ sig (Elt F)) : after g4 W (main_v19 : DevRef τ sig) = startMarks (W (main_v10 : DevRef τ sig)) := by
  after_results
  rfl

/-- Stretch 5 sums along the atoms. -/
theorem st5 (W : Valuation τ sig (Elt F)) : after g5 W (main_v20 : DevRef τ sig) = runningSumT (W (main_v19 : DevRef τ sig)) := by
  after_results
  rfl

/-- Stretch 6 subtracts one. -/
theorem st6 (W : Valuation τ sig (Elt F)) : after g6 W (main_v22 : DevRef τ sig) = minusOne (W (main_v20 : DevRef τ sig)) := by
  after_results
  rfl

/-- The take, first part: each atom's sample as a gather index. -/
theorem st7a (W : Valuation τ sig (Elt F)) : after ta W (main_call3_v5 : DevRef τ sig) = wrapIdx (W (main_v22 : DevRef τ sig)) := by
  after_results
  rfl

/-- The take, second part: whether the index is in range. -/
theorem st7b (W : Valuation τ sig (Elt F)) : after tb W (main_call3_v12 : DevRef τ sig) = inRange (W (main_call3_v5 : DevRef τ sig)) := by
  after_results
  rfl

/-- The take, third part: the gather and the choice against the fill value. -/
theorem st7c (W : Valuation τ sig (Elt F)) : after tc W (main_v23 : DevRef τ sig) = pick (W (main_call3_v12 : DevRef τ sig)) (W (main_v6 : DevRef τ sig)) (W (main_call3_v5 : DevRef τ sig)) := by
  after_results
  rfl

end Stretches

/-! The buffers a later stretch still needs are not written in between. -/

theorem keep0_arg7 (W : Valuation τ sig (Elt F)) : after g0 W (main_arg7 : DevRef τ sig) = W (main_arg7 : DevRef τ sig) :=
  after_of_forall_not_mem _ _ (List.forall_iff_forall_mem.mp (by
    simp only [g0, List.Forall, nullary_writes, unary_writes, binary_writes, ternary_writes, reshape_writes, Finset.mem_singleton]
    repeat' apply And.intro
    all_goals exact devRef_ne_of_ne (by decide)))
theorem keep1_v6 (W : Valuation τ sig (Elt F)) : after g1 W (main_v6 : DevRef τ sig) = W (main_v6 : DevRef τ sig) :=
  after_of_forall_not_mem _ _ (List.forall_iff_forall_mem.mp (by
    simp only [g1, List.Forall, nullary_writes, unary_writes, binary_writes, ternary_writes, reshape_writes, Finset.mem_singleton]
    repeat' apply And.intro
    all_goals exact devRef_ne_of_ne (by decide)))
theorem keep2_v6 (W : Valuation τ sig (Elt F)) : after g2 W (main_v6 : DevRef τ sig) = W (main_v6 : DevRef τ sig) :=
  after_of_forall_not_mem _ _ (List.forall_iff_forall_mem.mp (by
    simp only [g2, List.Forall, nullary_writes, unary_writes, binary_writes, ternary_writes, reshape_writes, Finset.mem_singleton]
    repeat' apply And.intro
    all_goals exact devRef_ne_of_ne (by decide)))
theorem keep3_v6 (W : Valuation τ sig (Elt F)) : after g3 W (main_v6 : DevRef τ sig) = W (main_v6 : DevRef τ sig) :=
  after_of_forall_not_mem _ _ (List.forall_iff_forall_mem.mp (by
    simp only [g3, List.Forall, nullary_writes, unary_writes, binary_writes, ternary_writes, reshape_writes, Finset.mem_singleton]
    repeat' apply And.intro
    all_goals exact devRef_ne_of_ne (by decide)))
theorem keep4_v6 (W : Valuation τ sig (Elt F)) : after g4 W (main_v6 : DevRef τ sig) = W (main_v6 : DevRef τ sig) :=
  after_of_forall_not_mem _ _ (List.forall_iff_forall_mem.mp (by
    simp only [g4, List.Forall, nullary_writes, unary_writes, binary_writes, ternary_writes, reshape_writes, Finset.mem_singleton]
    repeat' apply And.intro
    all_goals exact devRef_ne_of_ne (by decide)))
theorem keep5_v6 (W : Valuation τ sig (Elt F)) : after g5 W (main_v6 : DevRef τ sig) = W (main_v6 : DevRef τ sig) :=
  after_of_forall_not_mem _ _ (List.forall_iff_forall_mem.mp (by
    simp only [g5, List.Forall, nullary_writes, unary_writes, binary_writes, ternary_writes, reshape_writes, Finset.mem_singleton]
    repeat' apply And.intro
    all_goals exact devRef_ne_of_ne (by decide)))
theorem keep6_v6 (W : Valuation τ sig (Elt F)) : after g6 W (main_v6 : DevRef τ sig) = W (main_v6 : DevRef τ sig) :=
  after_of_forall_not_mem _ _ (List.forall_iff_forall_mem.mp (by
    simp only [g6, List.Forall, nullary_writes, unary_writes, binary_writes, ternary_writes, reshape_writes, Finset.mem_singleton]
    repeat' apply And.intro
    all_goals exact devRef_ne_of_ne (by decide)))
theorem keep7a_v6 (W : Valuation τ sig (Elt F)) : after ta W (main_v6 : DevRef τ sig) = W (main_v6 : DevRef τ sig) :=
  after_of_forall_not_mem _ _ (List.forall_iff_forall_mem.mp (by
    simp only [ta, List.Forall, nullary_writes, unary_writes, binary_writes, ternary_writes, reshape_writes, Finset.mem_singleton]
    repeat' apply And.intro
    all_goals exact devRef_ne_of_ne (by decide)))
theorem keep7b_v6 (W : Valuation τ sig (Elt F)) : after tb W (main_v6 : DevRef τ sig) = W (main_v6 : DevRef τ sig) :=
  after_of_forall_not_mem _ _ (List.forall_iff_forall_mem.mp (by
    simp only [tb, List.Forall, nullary_writes, unary_writes, binary_writes, ternary_writes, reshape_writes, Finset.mem_singleton]
    repeat' apply And.intro
    all_goals exact devRef_ne_of_ne (by decide)))
theorem keep7b_ix (W : Valuation τ sig (Elt F)) : after tb W (main_call3_v5 : DevRef τ sig) = W (main_call3_v5 : DevRef τ sig) :=
  after_of_forall_not_mem _ _ (List.forall_iff_forall_mem.mp (by
    simp only [tb, List.Forall, nullary_writes, unary_writes, binary_writes, ternary_writes, reshape_writes, Finset.mem_singleton]
    repeat' apply And.intro
    all_goals exact devRef_ne_of_ne (by decide)))

/-- Stretch 7, whole: the per-sample scale taken at each atom's sample. -/
theorem st7 (W : Valuation τ sig (Elt F)) :
    after g7 W (main_v23 : DevRef τ sig) = takeFill (W (main_v6 : DevRef τ sig)) (W (main_v22 : DevRef τ sig)) := by
  rw [take_split, after_append, after_append, st7c, st7b, keep7b_v6, keep7b_ix, keep7a_v6, st7a]
  rfl

/-- THE PREFIX leaves the per-atom scale of the three arrays as it found them. -/
theorem glue (V : Valuation τ sig (Elt F)) :
    after pre V (main_v23 : DevRef τ sig) = scaleAtom (V (main_arg5 : DevRef τ sig)) (V (main_arg6 : DevRef τ sig)) (V (main_arg7 : DevRef τ sig)) := by
  rw [after_pre, st7, st6, st5, st4, st3, st2, st1, keep0_arg7, keep6_v6, keep5_v6, keep4_v6, keep3_v6, keep2_v6, keep1_v6, st0]
  rfl

/-- The prefix writes no argument: `main_arg1` is as it found it. -/
theorem pre_keeps_arg1 (V : Valuation τ sig (Elt F)) : after pre V (main_arg1 : DevRef τ sig) = V (main_arg1 : DevRef τ sig) :=
  after_of_forall_not_mem _ _ (List.forall_iff_forall_mem.mp (by
    simp only [pre, g0, g1, g2, g3, g4, g5, g6, g7, List.cons_append, List.nil_append, List.Forall, nullary_writes, unary_writes, binary_writes, ternary_writes, reshape_writes, Finset.mem_singleton]
    repeat' apply And.intro
    all_goals exact devRef_ne_of_ne (by decide)))
/-- The prefix writes no argument: `main_arg2` is as it found it. -/
theorem pre_keeps_arg2 (V : Valuation τ sig (Elt F)) : after pre V (main_arg2 : DevRef τ sig) = V (main_arg2 : DevRef τ sig) :=
  after_of_forall_not_mem _ _ (List.forall_iff_forall_mem.mp (by
    simp only [pre, g0, g1, g2, g3, g4, g5, g6, g7, List.cons_append, List.nil_append, List.Forall, nullary_writes, unary_writes, binary_writes, ternary_writes, reshape_writes, Finset.mem_singleton]
    repeat' apply And.intro
    all_goals exact devRef_ne_of_ne (by decide)))
/-- The prefix writes no argument: `main_arg4` is as it found it. -/
theorem pre_keeps_arg4 (V : Valuation τ sig (Elt F)) : after pre V (main_arg4 : DevRef τ sig) = V (main_arg4 : DevRef τ sig) :=
  after_of_forall_not_mem _ _ (List.forall_iff_forall_mem.mp (by
    simp only [pre, g0, g1, g2, g3, g4, g5, g6, g7, List.cons_append, List.nil_append, List.Forall, nullary_writes, unary_writes, binary_writes, ternary_writes, reshape_writes, Finset.mem_singleton]
    repeat' apply And.intro
    all_goals exact devRef_ne_of_ne (by decide)))

end Cert.Noiser.GlueR

end
-- ==== Proof.RefRun.lean ====
/-
  The reference's run, read back.

  The reference is a straight line of 68 host operations — its calls to its helper functions (the roll, the two running sums,
  the masked take) written out at their call sites over each call's own buffers. Every weakly fair
  execution ends with each buffer at the fold of the operations over the launch contents. The first sixty compute the
  per-atom scale (Proof/GlueR.lean); the last eight, read at the two results:
    * the first is `x_mid + s · noise_x`, `s` the per-atom scale repeated along the three coordinates;
    * the second is `(x_mid_prev − first) / δ`: the host's quotient, which on the extended reals is the same function
      as the vector unit's.
  The arguments are written by no operation.
-/
import proofs.«116200_j72103910966019_2_alg».proof.Proof.Gen.ReferenceIdeal
import proofs.«116200_j72103910966019_2_alg».proof.Proof.GlueR
import proofs.«116200_j72103910966019_2_alg».proof.Proof.Spec
import Idealize.ShloMosaic.Lib.StableHlo.Run
import Idealize.ShloMosaic.PureOps.Ideal

noncomputable section

namespace Cert.Noiser.Ref

open Cert.ReferenceIdeal Cert.ReferenceIdeal.Facts₀
open Idealize.ShloMosaic Idealize.ShloMosaic.TcCoe Idealize.SL.Sem Idealize.ShloMosaic.StableHlo
open Cert.Noiser

variable {F : FTy → Type} [FloatOps F]

/-- The reference's 68 operations, in order. -/
abbrev ops : List (HloOp τ sig (Elt F)) :=
  [ StableHlo.nullary main_c (constantI S_ 32 0#32),
    StableHlo.unary main_c main_v0 (broadcastInDim S32768 ![] bcast_S_S32768 : (⟨S_, .i32⟩ : BufTy).Contents (Elt F) → (⟨S32768, .i32⟩ : BufTy).Contents (Elt F)),
    StableHlo.binary main_arg6 main_v0 main_v1 (cmpi .slt : (⟨S32768, .i32⟩ : BufTy).Contents (Elt F) → (⟨S32768, .i32⟩ : BufTy).Contents (Elt F) → (⟨S32768, .i1⟩ : BufTy).Contents (Elt F)),
    StableHlo.nullary main_c_0 (constantI S_ 32 1000#32),
    StableHlo.unary main_c_0 main_v2 (broadcastInDim S32768 ![] bcast_S_S32768 : (⟨S_, .i32⟩ : BufTy).Contents (Elt F) → (⟨S32768, .i32⟩ : BufTy).Contents (Elt F)),
    StableHlo.binary main_arg6 main_v2 main_v3 (addi : (⟨S32768, .i32⟩ : BufTy).Contents (Elt F) → (⟨S32768, .i32⟩ : BufTy).Contents (Elt F) → (⟨S32768, .i32⟩ : BufTy).Contents (Elt F)),
    StableHlo.ternary main_v1 main_v3 main_arg6 main_v4 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v4 main_v5 (broadcastInDim S32768x1 ![0] bcast_S32768_S32768x1_0 : (⟨S32768, .i32⟩ : BufTy).Contents (Elt F) → (⟨S32768x1, .i32⟩ : BufTy).Contents (Elt F)),
    StableHlo.binary main_arg5 main_v5 main_v6 ((fun x i => Host.gather gather_S1000_S32768x1_S32768_n_0_n_n_0_1_1 x i) : (⟨S1000, .f32⟩ : BufTy).Contents (Elt F) → (⟨S32768x1, .i32⟩ : BufTy).Contents (Elt F) → (⟨S32768, .f32⟩ : BufTy).Contents (Elt F)),
    StableHlo.TRef.unary (.of main_arg7 : StableHlo.TRef sig ⟨S32768, .i32⟩) (.of main_call0_v0 : StableHlo.TRef sig ⟨S1, .i32⟩) (extractStridedSlice S1 ![32767] · slices_S32768_S1_32767),
    StableHlo.TRef.unary (.of main_arg7 : StableHlo.TRef sig ⟨S32768, .i32⟩) (.of main_call0_v1 : StableHlo.TRef sig ⟨S32767, .i32⟩) (extractStridedSlice S32767 ![0] · slices_S32768_S32767_0),
    StableHlo.TRef.binary (.of main_call0_v0 : StableHlo.TRef sig ⟨S1, .i32⟩) (.of main_call0_v1 : StableHlo.TRef sig ⟨S32767, .i32⟩) (.of main_v7 : StableHlo.TRef sig ⟨S32768, .i32⟩) (fun a b => concatenate S32768 0 [⟨S1, a⟩, ⟨S32767, b⟩] concatenates_S1_S32767_S32768_d0),
    StableHlo.nullary main_c_1 (constantI S_ 32 0#32),
    StableHlo.unary main_c_1 main_v8 (broadcastInDim S1 ![] bcast_S_S1 : (⟨S_, .i32⟩ : BufTy).Contents (Elt F) → (⟨S1, .i32⟩ : BufTy).Contents (Elt F)),
    StableHlo.nullary main_c_2 (constantI S_ 32 0#32),
    StableHlo.ternary main_v7 main_v8 main_c_2 main_v9 ((fun x i u => Host.scatter scatter_S32768_S1_S__n_0_0_0 (fun _ b => b) x i u) : (⟨S32768, .i32⟩ : BufTy).Contents (Elt F) → (⟨S1, .i32⟩ : BufTy).Contents (Elt F) → (⟨S_, .i32⟩ : BufTy).Contents (Elt F) → (⟨S32768, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v9 : StableHlo.TRef sig ⟨S32768, .i32⟩) (.of main_call1_call0_v0 : StableHlo.TRef sig ⟨S_, .i32⟩) (.of main_v10 : StableHlo.TRef sig ⟨S32768, .i32⟩) (fun x v => Host.reduceWindow IntOp.addi ![32768] ![1] ![32767] ![0] x v reduceWindows_S32768_S32768_w32768s1p32767_0 h_S_),
    StableHlo.nullary main_c_3 (constantI S_ 32 0#32),
    StableHlo.unary main_c_3 main_v11 (broadcastInDim S4194304 ![] bcast_S_S4194304 : (⟨S_, .i32⟩ : BufTy).Contents (Elt F) → (⟨S4194304, .i32⟩ : BufTy).Contents (Elt F)),
    StableHlo.nullary main_c_4 (constantI S_ 32 0#32),
    StableHlo.unary main_c_4 main_v12 (broadcastInDim S32768 ![] bcast_S_S32768 : (⟨S_, .i32⟩ : BufTy).Contents (Elt F) → (⟨S32768, .i32⟩ : BufTy).Contents (Elt F)),
    StableHlo.binary main_v10 main_v12 main_v13 (cmpi .slt : (⟨S32768, .i32⟩ : BufTy).Contents (Elt F) → (⟨S32768, .i32⟩ : BufTy).Contents (Elt F) → (⟨S32768, .i1⟩ : BufTy).Contents (Elt F)),
    StableHlo.nullary main_c_5 (constantI S_ 32 4194304#32),
    StableHlo.unary main_c_5 main_v14 (broadcastInDim S32768 ![] bcast_S_S32768 : (⟨S_, .i32⟩ : BufTy).Contents (Elt F) → (⟨S32768, .i32⟩ : BufTy).Contents (Elt F)),
    StableHlo.binary main_v10 main_v14 main_v15 (addi : (⟨S32768, .i32⟩ : BufTy).Contents (Elt F) → (⟨S32768, .i32⟩ : BufTy).Contents (Elt F) → (⟨S32768, .i32⟩ : BufTy).Contents (Elt F)),
    StableHlo.ternary main_v13 main_v15 main_v10 main_v16 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v16 main_v17 (broadcastInDim S32768x1 ![0] bcast_S32768_S32768x1_0 : (⟨S32768, .i32⟩ : BufTy).Contents (Elt F) → (⟨S32768x1, .i32⟩ : BufTy).Contents (Elt F)),
    StableHlo.nullary main_c_6 (constantI S_ 32 1#32),
    StableHlo.unary main_c_6 main_v18 (broadcastInDim S32768 ![] bcast_S_S32768 : (⟨S_, .i32⟩ : BufTy).Contents (Elt F) → (⟨S32768, .i32⟩ : BufTy).Contents (Elt F)),
    StableHlo.ternary main_v11 main_v17 main_v18 main_v19 ((fun x i u => Host.scatter scatter_S4194304_S32768x1_S32768_n_0_0_1 IntOp.addi x i u) : (⟨S4194304, .i32⟩ : BufTy).Contents (Elt F) → (⟨S32768x1, .i32⟩ : BufTy).Contents (Elt F) → (⟨S32768, .i32⟩ : BufTy).Contents (Elt F) → (⟨S4194304, .i32⟩ : BufTy).Contents (Elt F)),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v19 : StableHlo.TRef sig ⟨S4194304, .i32⟩) (.of main_call2_call0_v0 : StableHlo.TRef sig ⟨S_, .i32⟩) (.of main_v20 : StableHlo.TRef sig ⟨S4194304, .i32⟩) (fun x v => Host.reduceWindow IntOp.addi ![4194304] ![1] ![4194303] ![0] x v reduceWindows_S4194304_S4194304_w4194304s1p4194303_0 h_S_),
    StableHlo.nullary main_c_7 (constantI S_ 32 1#32),
    StableHlo.unary main_c_7 main_v21 (broadcastInDim S4194304 ![] bcast_S_S4194304 : (⟨S_, .i32⟩ : BufTy).Contents (Elt F) → (⟨S4194304, .i32⟩ : BufTy).Contents (Elt F)),
    StableHlo.binary main_v20 main_v21 main_v22 (subi : (⟨S4194304, .i32⟩ : BufTy).Contents (Elt F) → (⟨S4194304, .i32⟩ : BufTy).Contents (Elt F) → (⟨S4194304, .i32⟩ : BufTy).Contents (Elt F)),
    StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S4194304, .i32⟩) (broadcastInDim S4194304 ![] bcast_S_S4194304),
    StableHlo.TRef.binary (.of main_v22 : StableHlo.TRef sig ⟨S4194304, .i32⟩) (.of main_call3_v0 : StableHlo.TRef sig ⟨S4194304, .i32⟩) (.of main_call3_v1 : StableHlo.TRef sig ⟨S4194304, .i1⟩) (cmpi .slt),
    StableHlo.TRef.nullary (.of main_call3_c_0 : StableHlo.TRef sig ⟨S_, .i32⟩) (constantI S_ 32 32768#32),
    StableHlo.TRef.unary (.of main_call3_c_0 : StableHlo.TRef sig ⟨S_, .i32⟩) (.of main_call3_v2 : StableHlo.TRef sig ⟨S4194304, .i32⟩) (broadcastInDim S4194304 ![] bcast_S_S4194304),
    StableHlo.TRef.binary (.of main_v22 : StableHlo.TRef sig ⟨S4194304, .i32⟩) (.of main_call3_v2 : StableHlo.TRef sig ⟨S4194304, .i32⟩) (.of main_call3_v3 : StableHlo.TRef sig ⟨S4194304, .i32⟩) addi,
    StableHlo.TRef.ternary (.of main_call3_v1 : StableHlo.TRef sig ⟨S4194304, .i1⟩) (.of main_call3_v3 : StableHlo.TRef sig ⟨S4194304, .i32⟩) (.of main_v22 : StableHlo.TRef sig ⟨S4194304, .i32⟩) (.of main_call3_v4 : StableHlo.TRef sig ⟨S4194304, .i32⟩) select,
    StableHlo.TRef.unary main_call3_call0.v0 (.of main_call3_v5 : StableHlo.TRef sig ⟨S4194304x1, .i32⟩) (broadcastInDim S4194304x1 ![0] bcast_S4194304_S4194304x1_0),
    StableHlo.TRef.nullary (.of main_call3_c_1 : StableHlo.TRef sig ⟨S1, .i32⟩) (constantI S1 32 32767#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S4194304x1, .i32⟩) (broadcastInDim S4194304x1 ![] bcast_S_S4194304x1),
    StableHlo.TRef.binary (.of main_call3_v5 : StableHlo.TRef sig ⟨S4194304x1, .i32⟩) (.of main_call3_v6 : StableHlo.TRef sig ⟨S4194304x1, .i32⟩) (.of main_call3_v7 : StableHlo.TRef sig ⟨S4194304x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S4194304x1, .i32⟩) (broadcastInDim S4194304x1 ![0, 1] bcast_S1x1_S4194304x1_0_1),
    StableHlo.TRef.binary (.of main_call3_v5 : StableHlo.TRef sig ⟨S4194304x1, .i32⟩) (.of main_call3_v9 : StableHlo.TRef sig ⟨S4194304x1, .i32⟩) (.of main_call3_v10 : StableHlo.TRef sig ⟨S4194304x1, .i1⟩) (cmpi .sle),
    StableHlo.TRef.binary (.of main_call3_v7 : StableHlo.TRef sig ⟨S4194304x1, .i1⟩) (.of main_call3_v10 : StableHlo.TRef sig ⟨S4194304x1, .i1⟩) (.of main_call3_v11 : StableHlo.TRef sig ⟨S4194304x1, .i1⟩) andi,
    StableHlo.TRef.nullary (.of main_call3_c_3 : StableHlo.TRef sig ⟨S_, .i1⟩) (constantI S_ 1 1#1),
    StableHlo.TRef.binary (.of main_call3_v11 : StableHlo.TRef sig ⟨S4194304x1, .i1⟩) (.of main_call3_c_3 : StableHlo.TRef sig ⟨S_, .i1⟩) (.of main_call3_v12 : StableHlo.TRef sig ⟨S4194304, .i1⟩) (fun x v => Host.reduce IntOp.andi x v reducesTo_S4194304x1_S4194304_d1 h_S_),
    StableHlo.TRef.binary (.of main_v6 : StableHlo.TRef sig ⟨S32768, .f32⟩) (.of main_call3_v5 : StableHlo.TRef sig ⟨S4194304x1, .i32⟩) (.of main_call3_v13 : StableHlo.TRef sig ⟨S4194304, .f32⟩) (fun x i => Host.gather gather_S32768_S4194304x1_S4194304_n_0_n_n_0_1_1 x i),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S4194304, .f32⟩) (broadcastInDim S4194304 ![] bcast_S_S4194304),
    StableHlo.TRef.ternary (.of main_call3_v12 : StableHlo.TRef sig ⟨S4194304, .i1⟩) (.of main_call3_v13 : StableHlo.TRef sig ⟨S4194304, .f32⟩) (.of main_call3_v14 : StableHlo.TRef sig ⟨S4194304, .f32⟩) (.of main_v23 : StableHlo.TRef sig ⟨S4194304, .f32⟩) select,
    StableHlo.unary main_v23 main_v24 (broadcastInDim S4194304x1 ![0] bcast_S4194304_S4194304x1_0 : (⟨S4194304, .f32⟩ : BufTy).Contents (Elt F) → (⟨S4194304x1, .f32⟩ : BufTy).Contents (Elt F)),
    StableHlo.unary main_v24 main_v25 (broadcastInDim S4194304x3 ![0, 1] bcast_S4194304x1_S4194304x3_0_1 : (⟨S4194304x1, .f32⟩ : BufTy).Contents (Elt F) → (⟨S4194304x3, .f32⟩ : BufTy).Contents (Elt F)),
    StableHlo.binary main_v25 main_arg4 main_v26 (mulf : (⟨S4194304x3, .f32⟩ : BufTy).Contents (Elt F) → (⟨S4194304x3, .f32⟩ : BufTy).Contents (Elt F) → (⟨S4194304x3, .f32⟩ : BufTy).Contents (Elt F)),
    StableHlo.binary main_arg1 main_v26 main_v27 (addf : (⟨S4194304x3, .f32⟩ : BufTy).Contents (Elt F) → (⟨S4194304x3, .f32⟩ : BufTy).Contents (Elt F) → (⟨S4194304x3, .f32⟩ : BufTy).Contents (Elt F)),
    StableHlo.binary main_arg2 main_v27 main_v28 (subf : (⟨S4194304x3, .f32⟩ : BufTy).Contents (Elt F) → (⟨S4194304x3, .f32⟩ : BufTy).Contents (Elt F) → (⟨S4194304x3, .f32⟩ : BufTy).Contents (Elt F)),
    StableHlo.nullary main_cst (constant S_ .f32 0x3A833405#32),
    StableHlo.unary main_cst main_v29 (broadcastInDim S4194304x3 ![] bcast_S_S4194304x3 : (⟨S_, .f32⟩ : BufTy).Contents (Elt F) → (⟨S4194304x3, .f32⟩ : BufTy).Contents (Elt F)),
    StableHlo.binary main_v28 main_v29 main_v30 (Host.divf : (⟨S4194304x3, .f32⟩ : BufTy).Contents (Elt F) → (⟨S4194304x3, .f32⟩ : BufTy).Contents (Elt F) → (⟨S4194304x3, .f32⟩ : BufTy).Contents (Elt F)) ]

/-- The last eight: the two results from the per-atom scale. -/
abbrev lastOps : List (HloOp τ sig (Elt F)) :=
  [ StableHlo.unary main_v23 main_v24 (broadcastInDim S4194304x1 ![0] bcast_S4194304_S4194304x1_0 : (⟨S4194304, .f32⟩ : BufTy).Contents (Elt F) → (⟨S4194304x1, .f32⟩ : BufTy).Contents (Elt F)),
    StableHlo.unary main_v24 main_v25 (broadcastInDim S4194304x3 ![0, 1] bcast_S4194304x1_S4194304x3_0_1 : (⟨S4194304x1, .f32⟩ : BufTy).Contents (Elt F) → (⟨S4194304x3, .f32⟩ : BufTy).Contents (Elt F)),
    StableHlo.binary main_v25 main_arg4 main_v26 (mulf : (⟨S4194304x3, .f32⟩ : BufTy).Contents (Elt F) → (⟨S4194304x3, .f32⟩ : BufTy).Contents (Elt F) → (⟨S4194304x3, .f32⟩ : BufTy).Contents (Elt F)),
    StableHlo.binary main_arg1 main_v26 main_v27 (addf : (⟨S4194304x3, .f32⟩ : BufTy).Contents (Elt F) → (⟨S4194304x3, .f32⟩ : BufTy).Contents (Elt F) → (⟨S4194304x3, .f32⟩ : BufTy).Contents (Elt F)),
    StableHlo.binary main_arg2 main_v27 main_v28 (subf : (⟨S4194304x3, .f32⟩ : BufTy).Contents (Elt F) → (⟨S4194304x3, .f32⟩ : BufTy).Contents (Elt F) → (⟨S4194304x3, .f32⟩ : BufTy).Contents (Elt F)),
    StableHlo.nullary main_cst (constant S_ .f32 0x3A833405#32),
    StableHlo.unary main_cst main_v29 (broadcastInDim S4194304x3 ![] bcast_S_S4194304x3 : (⟨S_, .f32⟩ : BufTy).Contents (Elt F) → (⟨S4194304x3, .f32⟩ : BufTy).Contents (Elt F)),
    StableHlo.binary main_v28 main_v29 main_v30 (Host.divf : (⟨S4194304x3, .f32⟩ : BufTy).Contents (Elt F) → (⟨S4194304x3, .f32⟩ : BufTy).Contents (Elt F) → (⟨S4194304x3, .f32⟩ : BufTy).Contents (Elt F)) ]

/-- The sixty that compute the per-atom scale, then the last eight. -/
theorem ops_split : (ops : List (HloOp τ sig (Elt F))) = GlueR.pre ++ lastOps := rfl

set_option maxRecDepth 4096 in
set_option maxHeartbeats 2000000 in
/-- @main is that straight line: the helper functions unfolded at their calls, the sequencing re-associated. -/
theorem main_eq (c : Dev nD) : main (F := F) c = seq ops := by
  simp only [main, fn_roll_static.body, fn_cumsum.body, fn_cumsum_0.body, fn_cumsum_1.body, fn_cumsum_2.body,
    fn_where.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.unary_bufs_sub .., StableHlo.unary_bufs_sub .., StableHlo.binary_bufs_sub ..,
    StableHlo.nullary_bufs_sub .., StableHlo.unary_bufs_sub .., StableHlo.nullary_bufs_sub .., StableHlo.ternary_bufs_sub .., StableHlo.nullary_bufs_sub .., StableHlo.unary_bufs_sub ..,
    StableHlo.binary_bufs_sub .., StableHlo.nullary_bufs_sub .., StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.nullary_bufs_sub ..,
    StableHlo.unary_bufs_sub .., StableHlo.ternary_bufs_sub .., StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.nullary_bufs_sub .., StableHlo.nullary_bufs_sub ..,
    StableHlo.unary_bufs_sub .., StableHlo.binary_bufs_sub .., StableHlo.unary_bufs_sub .., StableHlo.unary_bufs_sub .., StableHlo.binary_bufs_sub .., StableHlo.binary_bufs_sub ..,
    StableHlo.nullary_bufs_sub .., StableHlo.binary_bufs_sub .., StableHlo.binary_bufs_sub .., StableHlo.nullary_bufs_sub .., StableHlo.unary_bufs_sub .., StableHlo.ternary_bufs_sub ..,
    StableHlo.unary_bufs_sub .., StableHlo.unary_bufs_sub .., StableHlo.binary_bufs_sub .., StableHlo.binary_bufs_sub .., StableHlo.binary_bufs_sub .., StableHlo.nullary_bufs_sub ..,
    StableHlo.unary_bufs_sub .., StableHlo.binary_bufs_sub ..⟩

/-- Every weakly fair execution terminates with each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The last eight leave `x_mid + s · noise_x` in the first result. -/
theorem last_first (W : Valuation τ sig (Elt F)) :
    after lastOps W (main_v27 : DevRef τ sig)
      = noised (F := F) (W (main_arg1 : DevRef τ sig)) (scaleRows (W (main_v23 : DevRef τ sig))) (W (main_arg4 : DevRef τ sig)) := by
  after_results
  rfl

/-- On the extended reals the last eight leave `(x_mid_prev − first)/δ` in the second: the host's quotient is the
    vector unit's. -/
theorem last_second (W : Valuation τ sig (Elt Ideal)) :
    after (lastOps (F := Ideal)) W (main_v30 : DevRef τ sig)
      = target (F := Ideal) (W (main_arg2 : DevRef τ sig))
          (noised (F := Ideal) (W (main_arg1 : DevRef τ sig)) (scaleRows (W (main_v23 : DevRef τ sig))) (W (main_arg4 : DevRef τ sig))) := by
  after_results
  rfl

/-- The fold at the first result: `x_mid + s · noise_x`. -/
theorem first_eq (V : Valuation τ sig (Elt F)) :
    after ops V (main_v27 : DevRef τ sig)
      = noised (F := F) (V (main_arg1 : DevRef τ sig))
          (scaleRows (scaleAtom (V (main_arg5 : DevRef τ sig)) (V (main_arg6 : DevRef τ sig)) (V (main_arg7 : DevRef τ sig))))
          (V (main_arg4 : DevRef τ sig)) := by
  rw [ops_split, after_append, last_first, GlueR.pre_keeps_arg1, GlueR.pre_keeps_arg4, GlueR.glue]

/-- The fold at the second result, on the extended reals: `(x_mid_prev − first) / δ`. -/
theorem second_eq (V : Valuation τ sig (Elt Ideal)) :
    after (ops (F := Ideal)) V (main_v30 : DevRef τ sig)
      = target (F := Ideal) (V (main_arg2 : DevRef τ sig))
          (noised (F := Ideal) (V (main_arg1 : DevRef τ sig))
            (scaleRows (scaleAtom (V (main_arg5 : DevRef τ sig)) (V (main_arg6 : DevRef τ sig)) (V (main_arg7 : DevRef τ sig))))
            (V (main_arg4 : DevRef τ sig))) := by
  rw [ops_split, after_append, last_second, GlueR.pre_keeps_arg1, GlueR.pre_keeps_arg2, GlueR.pre_keeps_arg4, GlueR.glue]

/-! No operation writes an argument. -/

theorem kept_arg0 (V : Valuation τ sig (Elt F)) : after ops V (main_arg0 : DevRef τ sig) = V (main_arg0 : DevRef τ sig) :=
  after_of_forall_not_mem _ _ (List.forall_iff_forall_mem.mp (by
    simp only [ops, List.Forall, nullary_writes, unary_writes, binary_writes, ternary_writes, reshape_writes, Finset.mem_singleton]
    repeat' apply And.intro
    all_goals exact devRef_ne_of_ne (by decide)))
theorem kept_arg1 (V : Valuation τ sig (Elt F)) : after ops V (main_arg1 : DevRef τ sig) = V (main_arg1 : DevRef τ sig) :=
  after_of_forall_not_mem _ _ (List.forall_iff_forall_mem.mp (by
    simp only [ops, List.Forall, nullary_writes, unary_writes, binary_writes, ternary_writes, reshape_writes, Finset.mem_singleton]
    repeat' apply And.intro
    all_goals exact devRef_ne_of_ne (by decide)))
theorem kept_arg2 (V : Valuation τ sig (Elt F)) : after ops V (main_arg2 : DevRef τ sig) = V (main_arg2 : DevRef τ sig) :=
  after_of_forall_not_mem _ _ (List.forall_iff_forall_mem.mp (by
    simp only [ops, List.Forall, nullary_writes, unary_writes, binary_writes, ternary_writes, reshape_writes, Finset.mem_singleton]
    repeat' apply And.intro
    all_goals exact devRef_ne_of_ne (by decide)))
theorem kept_arg3 (V : Valuation τ sig (Elt F)) : after ops V (main_arg3 : DevRef τ sig) = V (main_arg3 : DevRef τ sig) :=
  after_of_forall_not_mem _ _ (List.forall_iff_forall_mem.mp (by
    simp only [ops, List.Forall, nullary_writes, unary_writes, binary_writes, ternary_writes, reshape_writes, Finset.mem_singleton]
    repeat' apply And.intro
    all_goals exact devRef_ne_of_ne (by decide)))
theorem kept_arg4 (V : Valuation τ sig (Elt F)) : after ops V (main_arg4 : DevRef τ sig) = V (main_arg4 : DevRef τ sig) :=
  after_of_forall_not_mem _ _ (List.forall_iff_forall_mem.mp (by
    simp only [ops, List.Forall, nullary_writes, unary_writes, binary_writes, ternary_writes, reshape_writes, Finset.mem_singleton]
    repeat' apply And.intro
    all_goals exact devRef_ne_of_ne (by decide)))
theorem kept_arg5 (V : Valuation τ sig (Elt F)) : after ops V (main_arg5 : DevRef τ sig) = V (main_arg5 : DevRef τ sig) :=
  after_of_forall_not_mem _ _ (List.forall_iff_forall_mem.mp (by
    simp only [ops, List.Forall, nullary_writes, unary_writes, binary_writes, ternary_writes, reshape_writes, Finset.mem_singleton]
    repeat' apply And.intro
    all_goals exact devRef_ne_of_ne (by decide)))
theorem kept_arg6 (V : Valuation τ sig (Elt F)) : after ops V (main_arg6 : DevRef τ sig) = V (main_arg6 : DevRef τ sig) :=
  after_of_forall_not_mem _ _ (List.forall_iff_forall_mem.mp (by
    simp only [ops, List.Forall, nullary_writes, unary_writes, binary_writes, ternary_writes, reshape_writes, Finset.mem_singleton]
    repeat' apply And.intro
    all_goals exact devRef_ne_of_ne (by decide)))
theorem kept_arg7 (V : Valuation τ sig (Elt F)) : after ops V (main_arg7 : DevRef τ sig) = V (main_arg7 : DevRef τ sig) :=
  after_of_forall_not_mem _ _ (List.forall_iff_forall_mem.mp (by
    simp only [ops, List.Forall, nullary_writes, unary_writes, binary_writes, ternary_writes, reshape_writes, Finset.mem_singleton]
    repeat' apply And.intro
    all_goals exact devRef_ne_of_ne (by decide)))

end Cert.Noiser.Ref

end
-- ==== Proof.lean ====
/-
  The certificate: a per-sample noise scale spread over ragged runs of atoms, and the two element-by-element results
  computed from it — by a tiled kernel on re-laid arrays, and by the reference on the arrays as given.

  With `s` the per-atom scale, both programs return `x_t = x_mid + s · noise_x` and
  `x_target = (x_mid_prev − x_t) / δ`, and pass `l_mid` and `e_mid` through.
    * `s` is computed by the same chain of host operations in both, so it is one function of
      (`noise_scales`, `t`, `num_atoms`) that the proof never opens (Proof/ScaleGlue.lean).
    * The kernel's program re-lays the (atoms × 3) arrays as 12288 rows of 1024, cuts them into 24 blocks of 512 rows,
      computes both results block by block, and re-lays them back. The blocks tile the rows (Proof/Blocks.lean), the
      results are element-by-element and so commute with the re-laying, and there and back is the identity
      (Proof/Spec.lean, Proof/KernelRun.lean).
    * The divisor `δ` is the same single-precision word on both sides, so its value never matters; the reference divides
      by the host's quotient and the kernel by the vector unit's, which on the extended reals are one function
      (Proof/RefRun.lean). No law of arithmetic beyond that is used, so the inputs' finiteness is never opened.
  The kernel's idealization is its own text read on the extended reals — no operation was rewritten — so there is
  nothing to preserve.
-/
import proofs.«116200_j72103910966019_2_alg».proof.Defs
import proofs.«116200_j72103910966019_2_alg».proof.Proof.Gen.Kernel
import proofs.«116200_j72103910966019_2_alg».proof.Proof.Gen.Kernel.Frame
import proofs.«116200_j72103910966019_2_alg».proof.Proof.Gen.KernelIdeal
import proofs.«116200_j72103910966019_2_alg».proof.Proof.Gen.KernelIdeal.Frame
import proofs.«116200_j72103910966019_2_alg».proof.Proof.Gen.ReferenceIdeal
import proofs.«116200_j72103910966019_2_alg».proof.Proof.Gen.Pre_finite_inputs
import proofs.«116200_j72103910966019_2_alg».proof.Proof.KernelRun
import proofs.«116200_j72103910966019_2_alg».proof.Proof.RefRun
import Idealize.ShloMosaic.Adequacy
import Idealize.ShloMosaic.Init

noncomputable section

namespace Cert.Proof

open Idealize.ShloMosaic Idealize.ShloMosaic.TcCoe Idealize.SL.Sem
open Cert.Noiser

/-- A function of three arguments takes equal arguments to equal values. -/
theorem congr3 {α β γ δ : Sort _} (f : α → β → γ → δ) {a a' : α} {b b' : β} {c c' : γ}
    (ha : a = a') (hb : b = b') (hc : c = c') : f a b c = f a' b' c' := by
  subst ha hb hc; rfl

theorem frame_k : Cert.frame_Kernel := fun m ρ _ => Cert.Kernel.Gen.frame m ρ

theorem frame_ki : Cert.frame_KernelIdeal := fun m ρ _ => Cert.KernelIdeal.Gen.frame m ρ

/-- The reference writes none of its arguments: each ends at the fold of its 68 operations, none of which names it
    as a result. -/
theorem frame_ri : Cert.frame_ReferenceIdeal := fun m ρ _ =>
  (θ_run Cert.ReferenceIdeal.defs _ _).mono
    (fun r h c => ⟨(h c Cert.ReferenceIdeal.main_arg0).trans (Cert.Noiser.Ref.kept_arg0 _),
      (h c Cert.ReferenceIdeal.main_arg1).trans (Cert.Noiser.Ref.kept_arg1 _),
      (h c Cert.ReferenceIdeal.main_arg2).trans (Cert.Noiser.Ref.kept_arg2 _),
      (h c Cert.ReferenceIdeal.main_arg3).trans (Cert.Noiser.Ref.kept_arg3 _),
      (h c Cert.ReferenceIdeal.main_arg4).trans (Cert.Noiser.Ref.kept_arg4 _),
      (h c Cert.ReferenceIdeal.main_arg5).trans (Cert.Noiser.Ref.kept_arg5 _),
      (h c Cert.ReferenceIdeal.main_arg6).trans (Cert.Noiser.Ref.kept_arg6 _),
      (h c Cert.ReferenceIdeal.main_arg7).trans (Cert.Noiser.Ref.kept_arg7 _)⟩)
    (Cert.Noiser.Ref.run_fold (F := Ideal) m ρ)

/-- No operation of the kernel was rewritten for the reading on the extended reals: nothing to preserve. -/
theorem preserves : Cert.preserves_Kernel_KernelIdeal := trivial

/-- On the extended reals, from memories that agree on the arguments, both programs end with
    `x_mid + s · noise_x` and `(x_mid_prev − that)/δ`, `s` the shared per-atom scale of the shared arguments, and with
    `l_mid`, `e_mid` as given. -/
theorem algebraic : Cert.algebraic_KernelIdeal_ReferenceIdeal := by
  intro m ρ m' ρ' _ hagree
  refine ⟨_, _, _, _,
    (θ_run Cert.KernelIdeal.defs _ _).mono
      (fun r h c => ⟨(h c).1, (h c).2.1, (h c).2.2.1, (h c).2.2.2.2.2.1, (h c).2.2⟩)
      (Cert.Noiser.Kernel.run (F := Ideal) m ρ), ?_⟩
  refine (θ_run Cert.ReferenceIdeal.defs _ _).mono (fun r h c => ?_) (Cert.Noiser.Ref.run_fold (F := Ideal) m' ρ')
  obtain ⟨a0, a1, a2, a3, a4, a5, a6, a7⟩ := hagree c
  have hrows := congrArg scaleRows (congr3 (scaleAtom (F := Ideal)) a5 a6 a7)
  have hfirst := congr3 (noised (F := Ideal)) a1 hrows a4
  exact ⟨(h c Cert.ReferenceIdeal.main_v27).trans ((Cert.Noiser.Ref.first_eq _).trans hfirst),
    (h c Cert.ReferenceIdeal.main_v30).trans ((Cert.Noiser.Ref.second_eq _).trans (congr (congrArg (target (F := Ideal)) a2) hfirst)),
    (h c Cert.ReferenceIdeal.main_arg0).trans ((Cert.Noiser.Ref.kept_arg0 _).trans a0),
    (h c Cert.ReferenceIdeal.main_arg3).trans ((Cert.Noiser.Ref.kept_arg3 _).trans a3),
    (h c Cert.ReferenceIdeal.main_arg0).trans (Cert.Noiser.Ref.kept_arg0 _),
    (h c Cert.ReferenceIdeal.main_arg1).trans (Cert.Noiser.Ref.kept_arg1 _),
    (h c Cert.ReferenceIdeal.main_arg2).trans (Cert.Noiser.Ref.kept_arg2 _),
    (h c Cert.ReferenceIdeal.main_arg3).trans (Cert.Noiser.Ref.kept_arg3 _),
    (h c Cert.ReferenceIdeal.main_arg4).trans (Cert.Noiser.Ref.kept_arg4 _),
    (h c Cert.ReferenceIdeal.main_arg5).trans (Cert.Noiser.Ref.kept_arg5 _),
    (h c Cert.ReferenceIdeal.main_arg6).trans (Cert.Noiser.Ref.kept_arg6 _),
    (h c Cert.ReferenceIdeal.main_arg7).trans (Cert.Noiser.Ref.kept_arg7 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
